-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x49152x16 : Shape := ⟨3, ![16, 49152, 16]⟩
abbrev S393216 : Shape := ⟨1, ![393216]⟩
abbrev S80x32 : Shape := ⟨2, ![80, 32]⟩
abbrev S1x1x32 : Shape := ⟨3, ![1, 1, 32]⟩
abbrev S_ : Shape := ⟨0, ![]⟩

class Facts : Prop where
  bcast_S_S16x49152x16 : S_.BroadcastsInDim S16x49152x16 (![] : Fin 0 → Fin S16x49152x16.rank)
  reducesTo_S16x49152x16_S_d0_1_2 : S16x49152x16.ReducesTo [0, 1, 2] S_
  h_S_ : 0 < S_.numel
  bcast_S_S393216 : S_.BroadcastsInDim S393216 (![] : Fin 0 → Fin S393216.rank)
  reducesTo_S393216_S_d0 : S393216.ReducesTo [0] S_
  bcast_S_S80x32 : S_.BroadcastsInDim S80x32 (![] : Fin 0 → Fin S80x32.rank)
  reducesTo_S80x32_S_d0_1 : S80x32.ReducesTo [0, 1] S_
  bcast_S_S1x1x32 : S_.BroadcastsInDim S1x1x32 (![] : Fin 0 → Fin S1x1x32.rank)
  reducesTo_S1x1x32_S_d0_1_2 : S1x1x32.ReducesTo [0, 1, 2] S_

variable [Facts]

def fn_part1 {F : FTy → Type} [FloatOps F] (main_v13 : IVec S_ 1) (main_v16 : IVec S1x1x32 1) : IVec S_ 1 :=
  let main_c_5 : IVec S_ 1 := constantI S_ 1 1#1
  let main_v17 : IVec S_ 1 := (fun x v => Host.reduce IntOp.andi x v reducesTo_S1x1x32_S_d0_1_2 h_S_) main_v16 main_c_5
  let main_v18 : IVec S_ 1 := andi main_v13 main_v17
  main_v18

def fn {F : FTy → Type} [FloatOps F] (main_arg0 : FVec F S16x49152x16 .f32) (main_arg1 : IVec S393216 32) (main_arg2 : IVec S393216 32) (main_arg3 : FVec F S393216 .f32) (main_arg4 : FVec F S80x32 .f32) (main_arg5 : FVec F S1x1x32 .f32) : IVec S_ 1 :=
  let main_v0 : FVec F S16x49152x16 .f32 := Host.absf main_arg0
  let main_cst : FVec F S_ .f32 := constant S_ .f32 0x7F800000#32
  let main_v1 : FVec F S16x49152x16 .f32 := broadcastInDim S16x49152x16 ![] bcast_S_S16x49152x16 main_cst
  let main_v2 : IVec S16x49152x16 1 := cmpf .olt main_v0 main_v1
  let main_c : IVec S_ 1 := constantI S_ 1 1#1
  let main_v3 : IVec S_ 1 := (fun x v => Host.reduce IntOp.andi x v reducesTo_S16x49152x16_S_d0_1_2 h_S_) main_v2 main_c
  let main_v4 : FVec F S393216 .f32 := Host.absf main_arg3
  let main_cst_0 : FVec F S_ .f32 := constant S_ .f32 0x7F800000#32
  let main_v5 : FVec F S393216 .f32 := broadcastInDim S393216 ![] bcast_S_S393216 main_cst_0
  let main_v6 : IVec S393216 1 := cmpf .olt main_v4 main_v5
  let main_c_1 : IVec S_ 1 := constantI S_ 1 1#1
  let main_v7 : IVec S_ 1 := (fun x v => Host.reduce IntOp.andi x v reducesTo_S393216_S_d0 h_S_) main_v6 main_c_1
  let main_v8 : IVec S_ 1 := andi main_v3 main_v7
  let main_v9 : FVec F S80x32 .f32 := Host.absf main_arg4
  let main_cst_2 : FVec F S_ .f32 := constant S_ .f32 0x7F800000#32
  let main_v10 : FVec F S80x32 .f32 := broadcastInDim S80x32 ![] bcast_S_S80x32 main_cst_2
  let main_v11 : IVec S80x32 1 := cmpf .olt main_v9 main_v10
  let main_c_3 : IVec S_ 1 := constantI S_ 1 1#1
  let main_v12 : IVec S_ 1 := (fun x v => Host.reduce IntOp.andi x v reducesTo_S80x32_S_d0_1 h_S_) main_v11 main_c_3
  let main_v13 : IVec S_ 1 := andi main_v8 main_v12
  let main_v14 : FVec F S1x1x32 .f32 := Host.absf main_arg5
  let main_cst_4 : FVec F S_ .f32 := constant S_ .f32 0x7F800000#32
  let main_v15 : FVec F S1x1x32 .f32 := broadcastInDim S1x1x32 ![] bcast_S_S1x1x32 main_cst_4
  let main_v16 : IVec S1x1x32 1 := cmpf .olt main_v14 main_v15
  fn_part1 (F := F) main_v13 main_v16
-- ==== Kernel.lean ====
abbrev S16x49152x16 : Shape := ⟨3, ![16, 49152, 16]⟩
abbrev S393216 : Shape := ⟨1, ![393216]⟩
abbrev S80x32 : Shape := ⟨2, ![80, 32]⟩
abbrev S1x1x32 : Shape := ⟨3, ![1, 1, 32]⟩
abbrev S49152x16x16 : Shape := ⟨3, ![49152, 16, 16]⟩
abbrev S49152x256 : Shape := ⟨2, ![49152, 256]⟩
abbrev S393216x1 : Shape := ⟨2, ![393216, 1]⟩
abbrev S_ : Shape := ⟨0, ![]⟩
abbrev S393216x256 : Shape := ⟨2, ![393216, 256]⟩
abbrev S1x49152x256 : Shape := ⟨3, ![1, 49152, 256]⟩
abbrev S5x49152x256 : Shape := ⟨3, ![5, 49152, 256]⟩
abbrev S5x49152x16x16 : Shape := ⟨4, ![5, 49152, 16, 16]⟩
abbrev S16x49152x16x5 : Shape := ⟨4, ![16, 49152, 16, 5]⟩
abbrev S786432x80 : Shape := ⟨2, ![786432, 80]⟩
abbrev S196608x320 : Shape := ⟨2, ![196608, 320]⟩
abbrev S320x128 : Shape := ⟨2, ![320, 128]⟩
abbrev S1 : Shape := ⟨1, ![1]⟩
abbrev S2 : Shape := ⟨1, ![2]⟩
abbrev S1x32 : Shape := ⟨2, ![1, 32]⟩
abbrev S1x1x1x32 : Shape := ⟨4, ![1, 1, 1, 32]⟩
abbrev S1x1x4x32 : Shape := ⟨4, ![1, 1, 4, 32]⟩
abbrev S1x128 : Shape := ⟨2, ![1, 128]⟩
abbrev S196608x128 : Shape := ⟨2, ![196608, 128]⟩
abbrev S4096x320 : Shape := ⟨2, ![4096, 320]⟩
abbrev S4096x128 : Shape := ⟨2, ![4096, 128]⟩
abbrev S786432x32 : Shape := ⟨2, ![786432, 32]⟩
abbrev S16x49152x32 : Shape := ⟨3, ![16, 49152, 32]⟩

abbrev nBuf : Space → Nat
  | .hbm => 127
  | .vmem => 6
  | .smem => 0
  | _ => 0

abbrev bufTy : (tb : Table) → Fin (tcTables nBuf tb) → BufTy
  | .hbm, ⟨0, _⟩ => ⟨S16x49152x16, .f32⟩
  | .hbm, ⟨1, _⟩ => ⟨S393216, .i32⟩
  | .hbm, ⟨2, _⟩ => ⟨S393216, .i32⟩
  | .hbm, ⟨3, _⟩ => ⟨S393216, .f32⟩
  | .hbm, ⟨4, _⟩ => ⟨S80x32, .f32⟩
  | .hbm, ⟨5, _⟩ => ⟨S1x1x32, .f32⟩
  | .hbm, ⟨6, _⟩ => ⟨S49152x16x16, .f32⟩
  | .hbm, ⟨7, _⟩ => ⟨S49152x256, .f32⟩
  | .hbm, ⟨8, _⟩ => ⟨S393216x1, .f32⟩
  | .hbm, ⟨9, _⟩ => ⟨S_, .i32⟩
  | .hbm, ⟨10, _⟩ => ⟨S393216, .i32⟩
  | .hbm, ⟨11, _⟩ => ⟨S393216, .i1⟩
  | .hbm, ⟨12, _⟩ => ⟨S_, .i32⟩
  | .hbm, ⟨13, _⟩ => ⟨S393216, .i32⟩
  | .hbm, ⟨14, _⟩ => ⟨S393216, .i32⟩
  | .hbm, ⟨15, _⟩ => ⟨S393216, .i32⟩
  | .hbm, ⟨16, _⟩ => ⟨S393216x1, .i32⟩
  | .hbm, ⟨17, _⟩ => ⟨S393216x256, .f32⟩
  | .hbm, ⟨18, _⟩ => ⟨S393216x256, .f32⟩
  | .hbm, ⟨19, _⟩ => ⟨S393216x256, .f32⟩
  | .hbm, ⟨20, _⟩ => ⟨S_, .f32⟩
  | .hbm, ⟨21, _⟩ => ⟨S49152x256, .f32⟩
  | .hbm, ⟨22, _⟩ => ⟨S393216x1, .i32⟩
  | .hbm, ⟨23, _⟩ => ⟨S49152x256, .f32⟩
  | .hbm, ⟨24, _⟩ => ⟨S393216x1, .f32⟩
  | .hbm, ⟨25, _⟩ => ⟨S_, .i32⟩
  | .hbm, ⟨26, _⟩ => ⟨S393216, .i32⟩
  | .hbm, ⟨27, _⟩ => ⟨S393216, .i1⟩
  | .hbm, ⟨28, _⟩ => ⟨S_, .i32⟩
  | .hbm, ⟨29, _⟩ => ⟨S393216, .i32⟩
  | .hbm, ⟨30, _⟩ => ⟨S393216, .i32⟩
  | .hbm, ⟨31, _⟩ => ⟨S393216, .i32⟩
  | .hbm, ⟨32, _⟩ => ⟨S393216x1, .i32⟩
  | .hbm, ⟨33, _⟩ => ⟨S393216x256, .f32⟩
  | .hbm, ⟨34, _⟩ => ⟨S393216x256, .f32⟩
  | .hbm, ⟨35, _⟩ => ⟨S393216x256, .f32⟩
  | .hbm, ⟨36, _⟩ => ⟨S_, .f32⟩
  | .hbm, ⟨37, _⟩ => ⟨S49152x256, .f32⟩
  | .hbm, ⟨38, _⟩ => ⟨S393216x1, .i32⟩
  | .hbm, ⟨39, _⟩ => ⟨S49152x256, .f32⟩
  | .hbm, ⟨40, _⟩ => ⟨S_, .f32⟩
  | .hbm, ⟨41, _⟩ => ⟨S49152x256, .f32⟩
  | .hbm, ⟨42, _⟩ => ⟨S49152x256, .f32⟩
  | .hbm, ⟨43, _⟩ => ⟨S49152x256, .f32⟩
  | .hbm, ⟨44, _⟩ => ⟨S393216x1, .f32⟩
  | .hbm, ⟨45, _⟩ => ⟨S_, .i32⟩
  | .hbm, ⟨46, _⟩ => ⟨S393216, .i32⟩
  | .hbm, ⟨47, _⟩ => ⟨S393216, .i1⟩
  | .hbm, ⟨48, _⟩ => ⟨S_, .i32⟩
  | .hbm, ⟨49, _⟩ => ⟨S393216, .i32⟩
  | .hbm, ⟨50, _⟩ => ⟨S393216, .i32⟩
  | .hbm, ⟨51, _⟩ => ⟨S393216, .i32⟩
  | .hbm, ⟨52, _⟩ => ⟨S393216x1, .i32⟩
  | .hbm, ⟨53, _⟩ => ⟨S393216x256, .f32⟩
  | .hbm, ⟨54, _⟩ => ⟨S393216x256, .f32⟩
  | .hbm, ⟨55, _⟩ => ⟨S393216x256, .f32⟩
  | .hbm, ⟨56, _⟩ => ⟨S_, .f32⟩
  | .hbm, ⟨57, _⟩ => ⟨S49152x256, .f32⟩
  | .hbm, ⟨58, _⟩ => ⟨S393216x1, .i32⟩
  | .hbm, ⟨59, _⟩ => ⟨S49152x256, .f32⟩
  | .hbm, ⟨60, _⟩ => ⟨S_, .f32⟩
  | .hbm, ⟨61, _⟩ => ⟨S49152x256, .f32⟩
  | .hbm, ⟨62, _⟩ => ⟨S49152x256, .f32⟩
  | .hbm, ⟨63, _⟩ => ⟨S49152x256, .f32⟩
  | .hbm, ⟨64, _⟩ => ⟨S393216x1, .f32⟩
  | .hbm, ⟨65, _⟩ => ⟨S_, .i32⟩
  | .hbm, ⟨66, _⟩ => ⟨S393216, .i32⟩
  | .hbm, ⟨67, _⟩ => ⟨S393216, .i1⟩
  | .hbm, ⟨68, _⟩ => ⟨S_, .i32⟩
  | .hbm, ⟨69, _⟩ => ⟨S393216, .i32⟩
  | .hbm, ⟨70, _⟩ => ⟨S393216, .i32⟩
  | .hbm, ⟨71, _⟩ => ⟨S393216, .i32⟩
  | .hbm, ⟨72, _⟩ => ⟨S393216x1, .i32⟩
  | .hbm, ⟨73, _⟩ => ⟨S393216x256, .f32⟩
  | .hbm, ⟨74, _⟩ => ⟨S393216x256, .f32⟩
  | .hbm, ⟨75, _⟩ => ⟨S393216x256, .f32⟩
  | .hbm, ⟨76, _⟩ => ⟨S_, .f32⟩
  | .hbm, ⟨77, _⟩ => ⟨S49152x256, .f32⟩
  | .hbm, ⟨78, _⟩ => ⟨S393216x1, .i32⟩
  | .hbm, ⟨79, _⟩ => ⟨S49152x256, .f32⟩
  | .hbm, ⟨80, _⟩ => ⟨S_, .f32⟩
  | .hbm, ⟨81, _⟩ => ⟨S49152x256, .f32⟩
  | .hbm, ⟨82, _⟩ => ⟨S49152x256, .f32⟩
  | .hbm, ⟨83, _⟩ => ⟨S49152x256, .f32⟩
  | .hbm, ⟨84, _⟩ => ⟨S1x49152x256, .f32⟩
  | .hbm, ⟨85, _⟩ => ⟨S1x49152x256, .f32⟩
  | .hbm, ⟨86, _⟩ => ⟨S1x49152x256, .f32⟩
  | .hbm, ⟨87, _⟩ => ⟨S1x49152x256, .f32⟩
  | .hbm, ⟨88, _⟩ => ⟨S1x49152x256, .f32⟩
  | .hbm, ⟨89, _⟩ => ⟨S5x49152x256, .f32⟩
  | .hbm, ⟨90, _⟩ => ⟨S5x49152x16x16, .f32⟩
  | .hbm, ⟨91, _⟩ => ⟨S16x49152x16x5, .f32⟩
  | .hbm, ⟨92, _⟩ => ⟨S786432x80, .f32⟩
  | .hbm, ⟨93, _⟩ => ⟨S196608x320, .f32⟩
  | .hbm, ⟨94, _⟩ => ⟨S_, .f32⟩
  | .hbm, ⟨95, _⟩ => ⟨S320x128, .f32⟩
  | .hbm, ⟨96, _⟩ => ⟨S_, .i32⟩
  | .hbm, ⟨97, _⟩ => ⟨S1, .i32⟩
  | .hbm, ⟨98, _⟩ => ⟨S_, .i32⟩
  | .hbm, ⟨99, _⟩ => ⟨S1, .i32⟩
  | .hbm, ⟨100, _⟩ => ⟨S2, .i32⟩
  | .hbm, ⟨101, _⟩ => ⟨S320x128, .f32⟩
  | .hbm, ⟨102, _⟩ => ⟨S_, .i32⟩
  | .hbm, ⟨103, _⟩ => ⟨S1, .i32⟩
  | .hbm, ⟨104, _⟩ => ⟨S_, .i32⟩
  | .hbm, ⟨105, _⟩ => ⟨S1, .i32⟩
  | .hbm, ⟨106, _⟩ => ⟨S2, .i32⟩
  | .hbm, ⟨107, _⟩ => ⟨S320x128, .f32⟩
  | .hbm, ⟨108, _⟩ => ⟨S_, .i32⟩
  | .hbm, ⟨109, _⟩ => ⟨S1, .i32⟩
  | .hbm, ⟨110, _⟩ => ⟨S_, .i32⟩
  | .hbm, ⟨111, _⟩ => ⟨S1, .i32⟩
  | .hbm, ⟨112, _⟩ => ⟨S2, .i32⟩
  | .hbm, ⟨113, _⟩ => ⟨S320x128, .f32⟩
  | .hbm, ⟨114, _⟩ => ⟨S_, .i32⟩
  | .hbm, ⟨115, _⟩ => ⟨S1, .i32⟩
  | .hbm, ⟨116, _⟩ => ⟨S_, .i32⟩
  | .hbm, ⟨117, _⟩ => ⟨S1, .i32⟩
  | .hbm, ⟨118, _⟩ => ⟨S2, .i32⟩
  | .hbm, ⟨119, _⟩ => ⟨S320x128, .f32⟩
  | .hbm, ⟨120, _⟩ => ⟨S1x32, .f32⟩
  | .hbm, ⟨121, _⟩ => ⟨S1x1x1x32, .f32⟩
  | .hbm, ⟨122, _⟩ => ⟨S1x1x4x32, .f32⟩
  | .hbm, ⟨123, _⟩ => ⟨S1x128, .f32⟩
  | .hbm, ⟨124, _⟩ => ⟨S196608x128, .f32⟩
  | .hbm, ⟨125, _⟩ => ⟨S786432x32, .f32⟩
  | .hbm, ⟨126, _⟩ => ⟨S16x49152x32, .f32⟩
  | .local _ .vmem, ⟨0, _⟩ => ⟨S4096x320, .f32⟩
  | .local _ .vmem, ⟨1, _⟩ => ⟨S4096x320, .f32⟩
  | .local _ .vmem, ⟨2, _⟩ => ⟨S320x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | _, _ => ⟨S16x49152x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_13 : Ref sig .tc := ⟨.hbm, 94, rfl⟩
abbrev main_v73 : Ref sig .tc := ⟨.hbm, 95, rfl⟩
abbrev main_c_14 : Ref sig .tc := ⟨.hbm, 96, rfl⟩
abbrev main_v74 : Ref sig .tc := ⟨.hbm, 97, rfl⟩
abbrev main_c_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_16 : Ref sig .tc := ⟨.hbm, 102, rfl⟩
abbrev main_v78 : Ref sig .tc := ⟨.hbm, 103, rfl⟩
abbrev main_c_17 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_18 : Ref sig .tc := ⟨.hbm, 108, rfl⟩
abbrev main_v82 : Ref sig .tc := ⟨.hbm, 109, rfl⟩
abbrev main_c_19 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_20 : Ref sig .tc := ⟨.hbm, 114, rfl⟩
abbrev main_v86 : Ref sig .tc := ⟨.hbm, 115, rfl⟩
abbrev main_c_21 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x49152x16_S49152x16x16_1_2_0 : S16x49152x16.Transposes [1, 2, 0] S49152x16x16
  shapeCasts_S49152x16x16_S49152x256 : S49152x16x16.ShapeCasts S49152x256
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x256_0_1 : S393216x1.BroadcastsInDim S393216x256 (![0, 1] : Fin 2 → Fin S393216x256.rank)
  bcast_S_S49152x256 : S_.BroadcastsInDim S49152x256 (![] : Fin 0 → Fin S49152x256.rank)
  bcast_S49152x256_S1x49152x256_1_2 : S49152x256.BroadcastsInDim S1x49152x256 (![1, 2] : Fin 2 → Fin S1x49152x256.rank)
  concatenates_S1x49152x256_S1x49152x256_S1x49152x256_S1x49152x256_S1x49152x256_S5x49152x256_d0 : Shape.Concatenates [S1x49152x256, S1x49152x256, S1x49152x256, S1x49152x256, S1x49152x256] S5x49152x256 0
  shapeCasts_S5x49152x256_S5x49152x16x16 : S5x49152x256.ShapeCasts S5x49152x16x16
  transposes_S5x49152x16x16_S16x49152x16x5_3_1_2_0 : S5x49152x16x16.Transposes [3, 1, 2, 0] S16x49152x16x5
  shapeCasts_S16x49152x16x5_S786432x80 : S16x49152x16x5.ShapeCasts S786432x80
  shapeCasts_S786432x80_S196608x320 : S786432x80.ShapeCasts S196608x320
  bcast_S_S320x128 : S_.BroadcastsInDim S320x128 (![] : Fin 0 → Fin S320x128.rank)
  bcast_S_S1 : S_.BroadcastsInDim S1 (![] : Fin 0 → Fin S1.rank)
  concatenates_S1_S1_S2_d0 : Shape.Concatenates [S1, S1] S2 0
  shapeCasts_S1x1x32_S1x32 : S1x1x32.ShapeCasts S1x32
  shapeCasts_S1x32_S1x1x1x32 : S1x32.ShapeCasts S1x1x1x32
  bcast_S1x1x1x32_S1x1x4x32_0_1_2_3 : S1x1x1x32.BroadcastsInDim S1x1x4x32 (![0, 1, 2, 3] : Fin 4 → Fin S1x1x4x32.rank)
  shapeCasts_S1x1x4x32_S1x128 : S1x1x4x32.ShapeCasts S1x128
  inb_S4096x320_S4096x320_0_0 : ∀ a, (![0, 0] : Fin 2 → Nat) a + S4096x320.size a ≤ S4096x320.size a
  h_S4096x320 : 0 < S4096x320.numel
  shapeCasts_S4096x320_S4096x320 : S4096x320.ShapeCasts S4096x320
  bitsLt_bf16_f32 : FTy.bits .bf16 < FTy.bits .f32
  inb_S320x128_S320x128_0_0 : ∀ a, (![0, 0] : Fin 2 → Nat) a + S320x128.size a ≤ S320x128.size a
  h_S320x128 : 0 < S320x128.numel
  shapeCasts_S320x128_S320x128 : S320x128.ShapeCasts S320x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S196608x128_S786432x32 : S196608x128.ShapeCasts S786432x32
  shapeCasts_S786432x32_S16x49152x32 : S786432x32.ShapeCasts S16x49152x32
  gather_S49152x256_S393216x1_S393216x256_1_0_n_n_0_1_1256_wf : GatherDims.WF S49152x256 S393216x1 S393216x256 [1] [0] [] [0] [] 1 ![1, 256]
  scatter_S49152x256_S393216x1_S393216x256_1_0_0_1_wf : ScatterDims.WF S49152x256 S393216x1 S393216x256 [1] [0] [0] 1
  scatter_S320x128_S2_S80x32_01_n_01_0_wf : ScatterDims.WF S320x128 S2 S80x32 [0, 1] [] [0, 1] 0
  dot_S4096x320_S320x128_S4096x128_1_0_0_1_n_n_wf : DotDims.WF S4096x320 S320x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x320.size a ≤ S196608x320.size a
  hwx0_0 : ∀ i : grid0.Coords, EltTy.bits .f32 = 32 ∨ (Rect.block (s := S196608x320) S4096x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x128.size a ≤ S320x128.size a
  hwx0_1 : ∀ i : grid0.Coords, EltTy.bits .f32 = 32 ∨ (Rect.block (s := S320x128) S320x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S196608x128.size a
  hwx0_3 : ∀ i : grid0.Coords, EltTy.bits .f32 = 32 ∨ (Rect.block (s := S196608x128) S4096x128.size (cc0_transform_3 i) (hinb0_3 i)).WholeWords (EltTy.packing .f32)

variable [Facts₀]

def gather_S49152x256_S393216x1_S393216x256_1_0_n_n_0_1_1256 : GatherDims S49152x256 S393216x1 S393216x256 where
  offsetDims := [1]
  collapsedSliceDims := [0]
  operandBatchingDims := []
  startIndicesBatchingDims := []
  startIndexMap := [0]
  indexVectorDim := 1
  sliceSizes := ![1, 256]
  wf := gather_S49152x256_S393216x1_S393216x256_1_0_n_n_0_1_1256_wf
def scatter_S49152x256_S393216x1_S393216x256_1_0_0_1 : ScatterDims S49152x256 S393216x1 S393216x256 where
  updateWindowDims := [1]
  insertedWindowDims := [0]
  scatterDimsToOperandDims := [0]
  indexVectorDim := 1
  wf := scatter_S49152x256_S393216x1_S393216x256_1_0_0_1_wf
def scatter_S320x128_S2_S80x32_01_n_01_0 : ScatterDims S320x128 S2 S80x32 where
  updateWindowDims := [0, 1]
  insertedWindowDims := []
  scatterDimsToOperandDims := [0, 1]
  indexVectorDim := 0
  wf := scatter_S320x128_S2_S80x32_01_n_01_0_wf
def dot_S4096x320_S320x128_S4096x128_1_0_0_1_n_n : DotDims S4096x320 S320x128 S4096x128 where
  lhsContracting := [1]
  rhsContracting := [0]
  lhsNonContracting := [0]
  rhsNonContracting := [1]
  lhsBatch := []
  rhsBatch := []
  wf := dot_S4096x320_S320x128_S4096x128_1_0_0_1_n_n_wf

abbrev win0_0 : Pipeline.Window sig grid0 :=
  Pipeline.Window.ofSpec (Memref.whole main_v72) S4096x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v89) S320x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v93) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v94) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x49152x16 : Shape := ⟨3, ![16, 49152, 16]⟩
abbrev S393216 : Shape := ⟨1, ![393216]⟩
abbrev S80x32 : Shape := ⟨2, ![80, 32]⟩
abbrev S1x1x32 : Shape := ⟨3, ![1, 1, 32]⟩
abbrev S49152x16x16 : Shape := ⟨3, ![49152, 16, 16]⟩
abbrev S49152x256 : Shape := ⟨2, ![49152, 256]⟩
abbrev S393216x1 : Shape := ⟨2, ![393216, 1]⟩
abbrev S_ : Shape := ⟨0, ![]⟩
abbrev S393216x256 : Shape := ⟨2, ![393216, 256]⟩
abbrev S1x49152x256 : Shape := ⟨3, ![1, 49152, 256]⟩
abbrev S5x49152x256 : Shape := ⟨3, ![5, 49152, 256]⟩
abbrev S5x49152x16x16 : Shape := ⟨4, ![5, 49152, 16, 16]⟩
abbrev S16x49152x16x5 : Shape := ⟨4, ![16, 49152, 16, 5]⟩
abbrev S786432x80 : Shape := ⟨2, ![786432, 80]⟩
abbrev S786432x32 : Shape := ⟨2, ![786432, 32]⟩
abbrev S16x49152x32 : Shape := ⟨3, ![16, 49152, 32]⟩

abbrev nBuf : Space → Nat
  | .hbm => 97
  | .vmem => 0
  | .smem => 0
  | _ => 0

abbrev bufTy : (tb : Table) → Fin (tcTables nBuf tb) → BufTy
  | .hbm, ⟨0, _⟩ => ⟨S16x49152x16, .f32⟩
  | .hbm, ⟨1, _⟩ => ⟨S393216, .i32⟩
  | .hbm, ⟨2, _⟩ => ⟨S393216, .i32⟩
  | .hbm, ⟨3, _⟩ => ⟨S393216, .f32⟩
  | .hbm, ⟨4, _⟩ => ⟨S80x32, .f32⟩
  | .hbm, ⟨5, _⟩ => ⟨S1x1x32, .f32⟩
  | .hbm, ⟨6, _⟩ => ⟨S49152x16x16, .f32⟩
  | .hbm, ⟨7, _⟩ => ⟨S49152x256, .f32⟩
  | .hbm, ⟨8, _⟩ => ⟨S393216x1, .f32⟩
  | .hbm, ⟨9, _⟩ => ⟨S_, .i32⟩
  | .hbm, ⟨10, _⟩ => ⟨S393216, .i32⟩
  | .hbm, ⟨11, _⟩ => ⟨S393216, .i1⟩
  | .hbm, ⟨12, _⟩ => ⟨S_, .i32⟩
  | .hbm, ⟨13, _⟩ => ⟨S393216, .i32⟩
  | .hbm, ⟨14, _⟩ => ⟨S393216, .i32⟩
  | .hbm, ⟨15, _⟩ => ⟨S393216, .i32⟩
  | .hbm, ⟨16, _⟩ => ⟨S393216x1, .i32⟩
  | .hbm, ⟨17, _⟩ => ⟨S393216x256, .f32⟩
  | .hbm, ⟨18, _⟩ => ⟨S393216x256, .f32⟩
  | .hbm, ⟨19, _⟩ => ⟨S393216x256, .f32⟩
  | .hbm, ⟨20, _⟩ => ⟨S_, .f32⟩
  | .hbm, ⟨21, _⟩ => ⟨S49152x256, .f32⟩
  | .hbm, ⟨22, _⟩ => ⟨S393216x1, .i32⟩
  | .hbm, ⟨23, _⟩ => ⟨S49152x256, .f32⟩
  | .hbm, ⟨24, _⟩ => ⟨S393216x1, .f32⟩
  | .hbm, ⟨25, _⟩ => ⟨S_, .i32⟩
  | .hbm, ⟨26, _⟩ => ⟨S393216, .i32⟩
  | .hbm, ⟨27, _⟩ => ⟨S393216, .i1⟩
  | .hbm, ⟨28, _⟩ => ⟨S_, .i32⟩
  | .hbm, ⟨29, _⟩ => ⟨S393216, .i32⟩
  | .hbm, ⟨30, _⟩ => ⟨S393216, .i32⟩
  | .hbm, ⟨31, _⟩ => ⟨S393216, .i32⟩
  | .hbm, ⟨32, _⟩ => ⟨S393216x1, .i32⟩
  | .hbm, ⟨33, _⟩ => ⟨S393216x256, .f32⟩
  | .hbm, ⟨34, _⟩ => ⟨S393216x256, .f32⟩
  | .hbm, ⟨35, _⟩ => ⟨S393216x256, .f32⟩
  | .hbm, ⟨36, _⟩ => ⟨S_, .f32⟩
  | .hbm, ⟨37, _⟩ => ⟨S49152x256, .f32⟩
  | .hbm, ⟨38, _⟩ => ⟨S393216x1, .i32⟩
  | .hbm, ⟨39, _⟩ => ⟨S49152x256, .f32⟩
  | .hbm, ⟨40, _⟩ => ⟨S_, .f32⟩
  | .hbm, ⟨41, _⟩ => ⟨S49152x256, .f32⟩
  | .hbm, ⟨42, _⟩ => ⟨S49152x256, .f32⟩
  | .hbm, ⟨43, _⟩ => ⟨S49152x256, .f32⟩
  | .hbm, ⟨44, _⟩ => ⟨S393216x1, .f32⟩
  | .hbm, ⟨45, _⟩ => ⟨S_, .i32⟩
  | .hbm, ⟨46, _⟩ => ⟨S393216, .i32⟩
  | .hbm, ⟨47, _⟩ => ⟨S393216, .i1⟩
  | .hbm, ⟨48, _⟩ => ⟨S_, .i32⟩
  | .hbm, ⟨49, _⟩ => ⟨S393216, .i32⟩
  | .hbm, ⟨50, _⟩ => ⟨S393216, .i32⟩
  | .hbm, ⟨51, _⟩ => ⟨S393216, .i32⟩
  | .hbm, ⟨52, _⟩ => ⟨S393216x1, .i32⟩
  | .hbm, ⟨53, _⟩ => ⟨S393216x256, .f32⟩
  | .hbm, ⟨54, _⟩ => ⟨S393216x256, .f32⟩
  | .hbm, ⟨55, _⟩ => ⟨S393216x256, .f32⟩
  | .hbm, ⟨56, _⟩ => ⟨S_, .f32⟩
  | .hbm, ⟨57, _⟩ => ⟨S49152x256, .f32⟩
  | .hbm, ⟨58, _⟩ => ⟨S393216x1, .i32⟩
  | .hbm, ⟨59, _⟩ => ⟨S49152x256, .f32⟩
  | .hbm, ⟨60, _⟩ => ⟨S_, .f32⟩
  | .hbm, ⟨61, _⟩ => ⟨S49152x256, .f32⟩
  | .hbm, ⟨62, _⟩ => ⟨S49152x256, .f32⟩
  | .hbm, ⟨63, _⟩ => ⟨S49152x256, .f32⟩
  | .hbm, ⟨64, _⟩ => ⟨S393216x1, .f32⟩
  | .hbm, ⟨65, _⟩ => ⟨S_, .i32⟩
  | .hbm, ⟨66, _⟩ => ⟨S393216, .i32⟩
  | .hbm, ⟨67, _⟩ => ⟨S393216, .i1⟩
  | .hbm, ⟨68, _⟩ => ⟨S_, .i32⟩
  | .hbm, ⟨69, _⟩ => ⟨S393216, .i32⟩
  | .hbm, ⟨70, _⟩ => ⟨S393216, .i32⟩
  | .hbm, ⟨71, _⟩ => ⟨S393216, .i32⟩
  | .hbm, ⟨72, _⟩ => ⟨S393216x1, .i32⟩
  | .hbm, ⟨73, _⟩ => ⟨S393216x256, .f32⟩
  | .hbm, ⟨74, _⟩ => ⟨S393216x256, .f32⟩
  | .hbm, ⟨75, _⟩ => ⟨S393216x256, .f32⟩
  | .hbm, ⟨76, _⟩ => ⟨S_, .f32⟩
  | .hbm, ⟨77, _⟩ => ⟨S49152x256, .f32⟩
  | .hbm, ⟨78, _⟩ => ⟨S393216x1, .i32⟩
  | .hbm, ⟨79, _⟩ => ⟨S49152x256, .f32⟩
  | .hbm, ⟨80, _⟩ => ⟨S_, .f32⟩
  | .hbm, ⟨81, _⟩ => ⟨S49152x256, .f32⟩
  | .hbm, ⟨82, _⟩ => ⟨S49152x256, .f32⟩
  | .hbm, ⟨83, _⟩ => ⟨S49152x256, .f32⟩
  | .hbm, ⟨84, _⟩ => ⟨S1x49152x256, .f32⟩
  | .hbm, ⟨85, _⟩ => ⟨S1x49152x256, .f32⟩
  | .hbm, ⟨86, _⟩ => ⟨S1x49152x256, .f32⟩
  | .hbm, ⟨87, _⟩ => ⟨S1x49152x256, .f32⟩
  | .hbm, ⟨88, _⟩ => ⟨S1x49152x256, .f32⟩
  | .hbm, ⟨89, _⟩ => ⟨S5x49152x256, .f32⟩
  | .hbm, ⟨90, _⟩ => ⟨S5x49152x16x16, .f32⟩
  | .hbm, ⟨91, _⟩ => ⟨S16x49152x16x5, .f32⟩
  | .hbm, ⟨92, _⟩ => ⟨S786432x80, .f32⟩
  | .hbm, ⟨93, _⟩ => ⟨S786432x32, .f32⟩
  | .hbm, ⟨94, _⟩ => ⟨S16x49152x32, .f32⟩
  | .hbm, ⟨95, _⟩ => ⟨S16x49152x32, .f32⟩
  | .hbm, ⟨96, _⟩ => ⟨S16x49152x32, .f32⟩
  | _, _ => ⟨S16x49152x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]

class Facts₀ : Prop where
  transposes_S16x49152x16_S49152x16x16_1_2_0 : S16x49152x16.Transposes [1, 2, 0] S49152x16x16
  shapeCasts_S49152x16x16_S49152x256 : S49152x16x16.ShapeCasts S49152x256
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x256_0_1 : S393216x1.BroadcastsInDim S393216x256 (![0, 1] : Fin 2 → Fin S393216x256.rank)
  bcast_S_S49152x256 : S_.BroadcastsInDim S49152x256 (![] : Fin 0 → Fin S49152x256.rank)
  bcast_S49152x256_S1x49152x256_1_2 : S49152x256.BroadcastsInDim S1x49152x256 (![1, 2] : Fin 2 → Fin S1x49152x256.rank)
  concatenates_S1x49152x256_S1x49152x256_S1x49152x256_S1x49152x256_S1x49152x256_S5x49152x256_d0 : Shape.Concatenates [S1x49152x256, S1x49152x256, S1x49152x256, S1x49152x256, S1x49152x256] S5x49152x256 0
  shapeCasts_S5x49152x256_S5x49152x16x16 : S5x49152x256.ShapeCasts S5x49152x16x16
  transposes_S5x49152x16x16_S16x49152x16x5_3_1_2_0 : S5x49152x16x16.Transposes [3, 1, 2, 0] S16x49152x16x5
  shapeCasts_S16x49152x16x5_S786432x80 : S16x49152x16x5.ShapeCasts S786432x80
  shapeCasts_S786432x32_S16x49152x32 : S786432x32.ShapeCasts S16x49152x32
  bcast_S1x1x32_S16x49152x32_0_1_2 : S1x1x32.BroadcastsInDim S16x49152x32 (![0, 1, 2] : Fin 3 → Fin S16x49152x32.rank)
  gather_S49152x256_S393216x1_S393216x256_1_0_n_n_0_1_1256_wf : GatherDims.WF S49152x256 S393216x1 S393216x256 [1] [0] [] [0] [] 1 ![1, 256]
  scatter_S49152x256_S393216x1_S393216x256_1_0_0_1_wf : ScatterDims.WF S49152x256 S393216x1 S393216x256 [1] [0] [0] 1
  dot_S786432x80_S80x32_S786432x32_1_0_0_1_n_n_wf : DotDims.WF S786432x80 S80x32 S786432x32 [1] [0] [0] [1] [] []

variable [Facts₀]

def gather_S49152x256_S393216x1_S393216x256_1_0_n_n_0_1_1256 : GatherDims S49152x256 S393216x1 S393216x256 where
  offsetDims := [1]
  collapsedSliceDims := [0]
  operandBatchingDims := []
  startIndicesBatchingDims := []
  startIndexMap := [0]
  indexVectorDim := 1
  sliceSizes := ![1, 256]
  wf := gather_S49152x256_S393216x1_S393216x256_1_0_n_n_0_1_1256_wf
def scatter_S49152x256_S393216x1_S393216x256_1_0_0_1 : ScatterDims S49152x256 S393216x1 S393216x256 where
  updateWindowDims := [1]
  insertedWindowDims := [0]
  scatterDimsToOperandDims := [0]
  indexVectorDim := 1
  wf := scatter_S49152x256_S393216x1_S393216x256_1_0_0_1_wf
def dot_S786432x80_S80x32_S786432x32_1_0_0_1_n_n : DotDims S786432x80 S80x32 S786432x32 where
  lhsContracting := [1]
  rhsContracting := [0]
  lhsNonContracting := [0]
  rhsNonContracting := [1]
  lhsBatch := []
  rhsBatch := []
  wf := dot_S786432x80_S80x32_S786432x32_1_0_0_1_n_n_wf

class Facts : Prop extends Facts₀ where

variable [Facts]
-- ==== Proof.ProjRunBits.lean ====
/-
  The run of the projection program: the host lines that build the packed operands, the one launch over 48 row
  tiles, and the two reshapes that unpack its result.

  The launch stages three operands and one result. Operand 0 is the packed feature matrix [196608, 320], one tile
  of 4096 rows per grid point; operands 1 and 2 (the block-diagonal weight [320, 128] and the tiled bias row
  [1, 128]) are the same whole block at every point, fetched once; the result [196608, 128] is written back one
  4096-row tile per point. The body loads the three staged blocks whole, forms
  (tile · weight) + bias-row, and stores it over the whole result tile; it keeps nothing between points. So after
  the body at point t the result's staging buffer holds one fixed function, `tileOut`, of the three blocks at t,
  and every operand's buffer holds what it held.

  From that the library's launch theorem gives the run: every execution ends, nothing faults, the result array is
  the tiles written back, and every buffer that the launch does not stage ends as the host lines leave it; no line
  writes an argument, so the six arguments end unchanged. Everything here holds at any reading `F` of the floats.
-/
import proofs.«111723_j26714696581338_2_alg».proof.Proof.Gen.Kernel.Launch
import proofs.«111723_j26714696581338_2_alg».proof.Proof.Gen.Kernel.Skeleton
import proofs.«111723_j26714696581338_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- What the core's buffers hold when the launch begins: the start contents after the host lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the launch touch only unscoped buffers of the core. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes its own result buffer, which is none of the four staged arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the launch writes argument 0: the launch finds it as the program was started with. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 0 ends as it began. -/
theorem exit_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_arg0 m c

/-- No host line before the launch writes argument 1: the launch finds it as the program was started with. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 1 ends as it began. -/
theorem exit_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_arg1 m c

/-- No host line before the launch writes argument 2: the launch finds it as the program was started with. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 2 ends as it began. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c

/-- No host line before the launch writes argument 3: the launch finds it as the program was started with. -/
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 3 ends as it began. -/
theorem exit_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_arg3 m c

/-- No host line before the launch writes argument 4: the launch finds it as the program was started with. -/
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 4 ends as it began. -/
theorem exit_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_arg4 m c

/-- No host line before the launch writes argument 5: the launch finds it as the program was started with. -/
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 5 ends as it began. -/
theorem exit_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_arg5 m c

/-! ## The blocks -/

/-- Window `w`'s block at point `t`, cut from its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An operand's staging buffer holds the operand's block of the current point whether or not the point fetched it:
    a point that does not fetch has the block index of the point before, and the body leaves the block in place. -/
theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An operand's staging buffer holds the operand's block of the current point whether or not the point fetched it:
    a point that does not fetch has the block index of the point before, and the body leaves the block in place. -/
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An operand's staging buffer holds the operand's block of the current point whether or not the point fetched it:
    a point that does not fetch has the block index of the point before, and the body leaves the block in place. -/
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole result tile, as the rectangle the body's one store writes. -/
abbrev tileRect : Rect S4096x128 := Rect.unit (s := S4096x128) ![0, 0] S4096x128.size inb_S4096x128_S4096x128_0_0
abbrev rowsRect : Rect S4096x320 := Rect.unit (s := S4096x320) ![0, 0] S4096x320.size inb_S4096x320_S4096x320_0_0
abbrev weightRect : Rect S320x128 := Rect.unit (s := S320x128) ![0, 0] S320x128.size inb_S320x128_S320x128_0_0
abbrev biasRect : Rect S1x128 := Rect.unit (s := S1x128) ![0, 0] S1x128.size inb_S1x128_S1x128_0_0

/-- What the result's staging buffer holds after the body, from the three staged blocks: the one store's value,
    (rows · weight) + bias row, laid over the whole tile. -/
def tileOut (x : Vec F S4096x320 .f32) (w : Vec F S320x128 .f32) (b : Vec F S1x128 .f32) : Vec F S4096x128 .f32 :=
  View.canon [⟨tileRect, k0_pay1 (View.ld x rowsRect) (View.ld w weightRect) (View.ld b biasRect)⟩]

/-- The store's rectangle is the whole tile. -/
theorem tile_covered (p0 : Vec F S4096x128 .f32) (y : S4096x128.Idx) :
    ∃ pc ∈ ([⟨tileRect, p0⟩] : List (View.Piece (Elt F) S4096x128 .f32)), y ∈ pc.1.set :=
  View.cover_of_tiled [⟨tileRect, p0⟩] S4096x128.size (by rfl) y

set_option maxHeartbeats 1000000 in
/-- The body on whole staging buffers — the operands' at known contents, the result's at anything — returns with
    the operands' unchanged and the result's at `tileOut` of them. -/
theorem body_triple (c : Dev nD) (E : Set ℕ) (i : grid0.Coords)
    (arg1 : Memref sig .tc .vmem S4096x320 .f32) (harg1 : arg1.IsWhole) (arg2 : Memref sig .tc .vmem S320x128 .f32) (harg2 : arg2.IsWhole)
    (arg3 : Memref sig .tc .vmem S1x128 .f32) (harg3 : arg3.IsWhole) (arg4 : Memref sig .tc .vmem S4096x128 .f32) (harg4 : arg4.IsWhole)
    (x0 : Vec F S4096x320 .f32) (x1 : Vec F S320x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tileOut x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_covered _)

/-! ## The launch's proof data -/

/-- The arrays as the launch finds them; after the body at point `t` each operand's buffer at its block and the
    result's at `tileOut` of the three blocks; nothing else of the core is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = tileOut (iblk m c 0 t) (iblk m c 1 t) (iblk m c 2 t) := by dsimp only [dats]

theorem held0 (c : Dev nD) (t : Fin cfg0.N) (d) : (dats m 0 c).before 0 t d = iblk m c 0 t :=
  held0_of m (dats m 0 c) (A_eq m c 0) (after0 m c) t d
theorem held1 (c : Dev nD) (t : Fin cfg0.N) (d) : (dats m 0 c).before 1 t d = iblk m c 1 t :=
  held1_of m (dats m 0 c) (A_eq m c 1) (after1 m c) t d
theorem held2 (c : Dev nD) (t : Fin cfg0.N) (d) : (dats m 0 c).before 2 t d = iblk m c 2 t :=
  held2_of m (dats m 0 c) (A_eq m c 2) (after2 m c) t d

/-! ## The body at a point of the grid -/

/-- What the launch calls the body with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program ends without a fault; at the end each staged array is what its
    write-backs made it, and every other unscoped buffer is as the two reshapes after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The six arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c),
     ((h c).2 main_arg4 (Pipeline.mem_restRefs_of main_arg4 (by decide) (by decide))).trans (exit_arg4 m (dats m) c),
     ((h c).2 main_arg5 (Pipeline.mem_restRefs_of main_arg5 (by decide) (by decide))).trans (exit_arg5 m (dats m) c)⟩) (run_main m ρ)

end Cert.Kernel.Proj

end
-- ==== Proof.ProjRunIdeal.lean ====
/-
  The run of the projection program: the host lines that build the packed operands, the one launch over 48 row
  tiles, and the two reshapes that unpack its result.

  The launch stages three operands and one result. Operand 0 is the packed feature matrix [196608, 320], one tile
  of 4096 rows per grid point; operands 1 and 2 (the block-diagonal weight [320, 128] and the tiled bias row
  [1, 128]) are the same whole block at every point, fetched once; the result [196608, 128] is written back one
  4096-row tile per point. The body loads the three staged blocks whole, forms
  (tile · weight) + bias-row, and stores it over the whole result tile; it keeps nothing between points. So after
  the body at point t the result's staging buffer holds one fixed function, `tileOut`, of the three blocks at t,
  and every operand's buffer holds what it held.

  From that the library's launch theorem gives the run: every execution ends, nothing faults, the result array is
  the tiles written back, and every buffer that the launch does not stage ends as the host lines leave it; no line
  writes an argument, so the six arguments end unchanged. Everything here holds at any reading `F` of the floats.
-/
import proofs.«111723_j26714696581338_2_alg».proof.Proof.Gen.KernelIdeal.Launch
import proofs.«111723_j26714696581338_2_alg».proof.Proof.Gen.KernelIdeal.Skeleton
import proofs.«111723_j26714696581338_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- What the core's buffers hold when the launch begins: the start contents after the host lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the launch touch only unscoped buffers of the core. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes its own result buffer, which is none of the four staged arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the launch writes argument 0: the launch finds it as the program was started with. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 0 ends as it began. -/
theorem exit_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_arg0 m c

/-- No host line before the launch writes argument 1: the launch finds it as the program was started with. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 1 ends as it began. -/
theorem exit_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_arg1 m c

/-- No host line before the launch writes argument 2: the launch finds it as the program was started with. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 2 ends as it began. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c

/-- No host line before the launch writes argument 3: the launch finds it as the program was started with. -/
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 3 ends as it began. -/
theorem exit_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_arg3 m c

/-- No host line before the launch writes argument 4: the launch finds it as the program was started with. -/
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 4 ends as it began. -/
theorem exit_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_arg4 m c

/-- No host line before the launch writes argument 5: the launch finds it as the program was started with. -/
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither do the two reshapes after it, and the launch stages no argument: argument 5 ends as it began. -/
theorem exit_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_arg5 m c

/-! ## The blocks -/

/-- Window `w`'s block at point `t`, cut from its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An operand's staging buffer holds the operand's block of the current point whether or not the point fetched it:
    a point that does not fetch has the block index of the point before, and the body leaves the block in place. -/
theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An operand's staging buffer holds the operand's block of the current point whether or not the point fetched it:
    a point that does not fetch has the block index of the point before, and the body leaves the block in place. -/
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An operand's staging buffer holds the operand's block of the current point whether or not the point fetched it:
    a point that does not fetch has the block index of the point before, and the body leaves the block in place. -/
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole result tile, as the rectangle the body's one store writes. -/
abbrev tileRect : Rect S4096x128 := Rect.unit (s := S4096x128) ![0, 0] S4096x128.size inb_S4096x128_S4096x128_0_0
abbrev rowsRect : Rect S4096x320 := Rect.unit (s := S4096x320) ![0, 0] S4096x320.size inb_S4096x320_S4096x320_0_0
abbrev weightRect : Rect S320x128 := Rect.unit (s := S320x128) ![0, 0] S320x128.size inb_S320x128_S320x128_0_0
abbrev biasRect : Rect S1x128 := Rect.unit (s := S1x128) ![0, 0] S1x128.size inb_S1x128_S1x128_0_0

/-- What the result's staging buffer holds after the body, from the three staged blocks: the one store's value,
    (rows · weight) + bias row, laid over the whole tile. -/
def tileOut (x : Vec F S4096x320 .f32) (w : Vec F S320x128 .f32) (b : Vec F S1x128 .f32) : Vec F S4096x128 .f32 :=
  View.canon [⟨tileRect, k0_pay1 (View.ld x rowsRect) (View.ld w weightRect) (View.ld b biasRect)⟩]

/-- The store's rectangle is the whole tile. -/
theorem tile_covered (p0 : Vec F S4096x128 .f32) (y : S4096x128.Idx) :
    ∃ pc ∈ ([⟨tileRect, p0⟩] : List (View.Piece (Elt F) S4096x128 .f32)), y ∈ pc.1.set :=
  View.cover_of_tiled [⟨tileRect, p0⟩] S4096x128.size (by rfl) y

set_option maxHeartbeats 1000000 in
/-- The body on whole staging buffers — the operands' at known contents, the result's at anything — returns with
    the operands' unchanged and the result's at `tileOut` of them. -/
theorem body_triple (c : Dev nD) (E : Set ℕ) (i : grid0.Coords)
    (arg1 : Memref sig .tc .vmem S4096x320 .f32) (harg1 : arg1.IsWhole) (arg2 : Memref sig .tc .vmem S320x128 .f32) (harg2 : arg2.IsWhole)
    (arg3 : Memref sig .tc .vmem S1x128 .f32) (harg3 : arg3.IsWhole) (arg4 : Memref sig .tc .vmem S4096x128 .f32) (harg4 : arg4.IsWhole)
    (x0 : Vec F S4096x320 .f32) (x1 : Vec F S320x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tileOut x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_covered _)

/-! ## The launch's proof data -/

/-- The arrays as the launch finds them; after the body at point `t` each operand's buffer at its block and the
    result's at `tileOut` of the three blocks; nothing else of the core is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = tileOut (iblk m c 0 t) (iblk m c 1 t) (iblk m c 2 t) := by dsimp only [dats]

theorem held0 (c : Dev nD) (t : Fin cfg0.N) (d) : (dats m 0 c).before 0 t d = iblk m c 0 t :=
  held0_of m (dats m 0 c) (A_eq m c 0) (after0 m c) t d
theorem held1 (c : Dev nD) (t : Fin cfg0.N) (d) : (dats m 0 c).before 1 t d = iblk m c 1 t :=
  held1_of m (dats m 0 c) (A_eq m c 1) (after1 m c) t d
theorem held2 (c : Dev nD) (t : Fin cfg0.N) (d) : (dats m 0 c).before 2 t d = iblk m c 2 t :=
  held2_of m (dats m 0 c) (A_eq m c 2) (after2 m c) t d

/-! ## The body at a point of the grid -/

/-- What the launch calls the body with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program ends without a fault; at the end each staged array is what its
    write-backs made it, and every other unscoped buffer is as the two reshapes after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The six arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c),
     ((h c).2 main_arg4 (Pipeline.mem_restRefs_of main_arg4 (by decide) (by decide))).trans (exit_arg4 m (dats m) c),
     ((h c).2 main_arg5 (Pipeline.mem_restRefs_of main_arg5 (by decide) (by decide))).trans (exit_arg5 m (dats m) c)⟩) (run_main m ρ)

end Cert.KernelIdeal.Proj

end
-- ==== Proof.LibWindowScatter.lean ====
/-
  A scatter whose body returns the update (`x.at[window].set(v)`), read at one entry of its result.

  The host's scatter is a left fold over the update's indices in row-major order: update index `j` lands at the
  result index `resultIdx? j` (its window start plus its window coordinate) when that lies inside the operand, and is
  dropped otherwise; the element there is replaced by the body applied to the old element and the update's. When the
  body returns the update and no two update indices land on the same entry, the order of the fold does not matter to
  what an entry ends with: an entry that some update index `j` lands on holds the update at `j`, and an entry that
  none lands on holds the operand's element. Both are proved for a fold of this form over any list of keys, and then
  stated for `Host.scatter`.
-/
import Idealize.ShloMosaic.PureOps.ShapeOps

noncomputable section

namespace Idealize.ShloMosaic.WindowScatter

open Idealize.ShloMosaic

variable {ι κ α : Type} [DecidableEq ι]

/-- One step of the fold: key `n` lands at `g n` (or nowhere), carrying `u n`. -/
def step (g : κ → Option ι) (f : α → α → α) (u : κ → α) (r : ι → α) (n : κ) : ι → α :=
  match g n with
  | some i => fun i' => if i' = i then f (r i) (u n) else r i'
  | none => r

/-- A step leaves alone every entry its key does not land on. -/
theorem step_other (g : κ → Option ι) (f : α → α → α) (u : κ → α) (r : ι → α) (n : κ) (i : ι) (h : g n ≠ some i) :
    step g f u r n i = r i := by
  unfold step
  cases hg : g n with
  | none => rfl
  | some i0 =>
    show (if i = i0 then f (r i0) (u n) else r i) = r i
    rw [if_neg]
    intro e
    exact h (by rw [hg, e])

/-- At the entry its key lands on, a step combines the old element with the key's value. -/
theorem step_hit (g : κ → Option ι) (f : α → α → α) (u : κ → α) (r : ι → α) (n : κ) (i : ι) (h : g n = some i) :
    step g f u r n i = f (r i) (u n) := by
  unfold step
  rw [h]
  show (if i = i then f (r i) (u n) else r i) = _
  rw [if_pos rfl]

/-- An entry no key of the list lands on comes through the fold unchanged. -/
theorem foldl_miss (g : κ → Option ι) (f : α → α → α) (u : κ → α) (i : ι) :
    ∀ (L : List κ) (r : ι → α), (∀ k ∈ L, g k ≠ some i) → L.foldl (step g f u) r i = r i
  | [], _, _ => rfl
  | a :: L, r, h => by
    rw [List.foldl_cons, foldl_miss g f u i L _ (fun k hk => h k (List.mem_cons_of_mem _ hk)),
      step_other g f u r a i (h a List.mem_cons_self)]

/-- With the body that returns the update: an entry that exactly one key `k` of a duplicate-free list lands on ends
    at `u k`. -/
theorem foldl_set_hit (g : κ → Option ι) (u : κ → α) (i : ι) (k : κ) (hk : g k = some i)
    (huniq : ∀ k', g k' = some i → k' = k) :
    ∀ (L : List κ) (r : ι → α), L.Nodup → k ∈ L → L.foldl (step g (fun _ b => b) u) r i = u k
  | [], _, _, h => absurd h List.not_mem_nil
  | a :: L, r, hnd, hmem => by
    rw [List.foldl_cons]
    by_cases hak : a = k
    · subst hak
      have hnot : a ∉ L := (List.nodup_cons.mp hnd).1
      rw [foldl_miss g _ u i L _ (fun k' hk' hg => hnot (huniq k' hg ▸ hk')), step_hit g _ u r a i hk]
    · have hkL : k ∈ L := by
        rcases List.mem_cons.mp hmem with h | h
        · exact absurd h.symm hak
        · exact h
      exact foldl_set_hit g u i k hk huniq L _ (List.nodup_cons.mp hnd).2 hkL

variable {s si u : Shape} {w : Nat}

/-- The host's scatter is the fold of `step` over the update's row-major positions. -/
theorem scatter_eq_foldl (d : ScatterDims s si u) (f : α → α → α) (x : s.Idx → α) (idx : IVec si w) (upd : u.Idx → α) :
    Host.scatter d f x idx upd
      = (List.finRange u.numel).foldl
          (step (fun n => d.resultIdx? (u.rowMajor.symm n) idx) f (fun n => upd (u.rowMajor.symm n))) x := by
  unfold Host.scatter
  congr 1
  funext r n
  unfold step
  dsimp only
  generalize d.resultIdx? (u.rowMajor.symm n) idx = o
  cases o <;> rfl

/-- An entry no update index lands on keeps the operand's element. -/
theorem scatter_miss (d : ScatterDims s si u) (f : α → α → α) (x : s.Idx → α) (idx : IVec si w) (upd : u.Idx → α) (i : s.Idx)
    (h : ∀ j, d.resultIdx? j idx ≠ some i) : Host.scatter d f x idx upd i = x i := by
  rw [scatter_eq_foldl]
  exact foldl_miss _ _ _ i _ _ (fun n _ => h _)

/-- With the body that returns the update: an entry exactly one update index `j` lands on holds the update at `j`. -/
theorem scatter_set_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  rw [scatter_eq_foldl]
  have h := foldl_set_hit (fun n => d.resultIdx? (u.rowMajor.symm n) idx) (fun n => upd (u.rowMajor.symm n)) i (u.rowMajor j)
    (by show d.resultIdx? (u.rowMajor.symm (u.rowMajor j)) idx = some i; rw [Equiv.symm_apply_apply]; exact hj)
    (fun n hn => by rw [← huniq _ hn, Equiv.apply_symm_apply])
    (List.finRange u.numel) x (List.nodup_finRange _) (List.mem_finRange _)
  rw [h]
  show upd (u.rowMajor.symm (u.rowMajor j)) = upd j
  rw [Equiv.symm_apply_apply]

end Idealize.ShloMosaic.WindowScatter

end
-- ==== Proof.WeightBlocks.lean ====
/-
  The block-diagonal weight the host lines build, read at an entry.

  The host starts from the zero matrix [320, 128] and writes the weight matrix [80, 32] into it four times, as one
  window each, at the starts (0, 0), (80, 32), (160, 64), (240, 96): a scatter of one window whose body returns the
  update. An update index (a, b) of a window started at (r0, c0) lands at (r0 + a, c0 + b), inside the matrix, and
  two different update indices land on different entries; so after one such write, entry (k, q) holds the update
  at (k - r0, q - c0) when it lies in the window and the old element when it does not. The four windows are the four
  diagonal blocks, so after the four writes entry (k, q) holds the weight at (k mod 80, q mod 32) when k and q are in
  the same block (k / 80 = q / 32), and zero otherwise.
-/
import proofs.«111723_j26714696581338_2_alg».proof.Proof.Gen.KernelIdeal
import proofs.«111723_j26714696581338_2_alg».proof.Proof.LibWindowScatter
import Idealize.ShloMosaic.Lib.ValueIdx
import Idealize.ShloMosaic.Lib.Pipeline.Value

noncomputable section

namespace Cert.KernelIdeal.Weights

open Cert.KernelIdeal Cert.KernelIdeal.Facts₀ Cert.KernelIdeal.Facts Idealize.ShloMosaic Idealize.ShloMosaic.ValueIdx

/-- The dimension numbers of the four writes: a whole [80, 32] window at a start index of two components. -/
abbrev dW := scatter_S320x128_S2_S80x32_01_n_01_0

/-- The window's start on the row axis is the first component of the start index, read signed. -/
theorem start0 (j : S80x32.Idx) (idx : IVec S2 32) : dW.start j idx 0 = (idx (ix1 (0 : Fin 2))).toInt := by
  unfold ScatterDims.start
  rw [dif_pos (by decide)]
  refine congrArg (fun z => (idx z).toInt) ?_
  funext b
  match b with
  | ⟨0, _⟩ => rfl

/-- Its start on the column axis is the second component. -/
theorem start1 (j : S80x32.Idx) (idx : IVec S2 32) : dW.start j idx 1 = (idx (ix1 (1 : Fin 2))).toInt := by
  unfold ScatterDims.start
  rw [dif_pos (by decide)]
  refine congrArg (fun z => (idx z).toInt) ?_
  funext b
  match b with
  | ⟨0, _⟩ => rfl

/-- The window coordinates of an update index are its own two coordinates. -/
theorem win0 (j : S80x32.Idx) : dW.window j 0 = (j 0).val := by
  unfold ScatterDims.window
  rw [dif_pos (by decide)]
  rfl

theorem win1 (j : S80x32.Idx) : dW.window j 1 = (j 1).val := by
  unfold ScatterDims.window
  rw [dif_pos (by decide)]
  rfl

/-- An update index (a, b) of a window started at (r0, c0) that fits the matrix lands at (r0 + a, c0 + b). -/
theorem lands (j : S80x32.Idx) (idx : IVec S2 32) (r0 c0 : ℕ) (hr : r0 + 80 ≤ 320) (hc : c0 + 32 ≤ 128)
    (h0 : (idx (ix1 (0 : Fin 2))).toInt = r0) (h1 : (idx (ix1 (1 : Fin 2))).toInt = c0) :
    dW.resultIdx? j idx
      = some (ix2 (⟨r0 + (j 0).val, by have := (j 0).isLt; show _ < 320; change (j 0).val < 80 at this; omega⟩ : Fin 320)
          (⟨c0 + (j 1).val, by have := (j 1).isLt; show _ < 128; change (j 1).val < 32 at this; omega⟩ : Fin 128)) := by
  have hj0 : (j 0).val < 80 := (j 0).isLt
  have hj1 : (j 1).val < 32 := (j 1).isLt
  unfold ScatterDims.resultIdx?
  rw [dif_pos (fun a => by
    match a with
    | ⟨0, _⟩ =>
      show 0 ≤ dW.start j idx 0 + (dW.window j 0 : ℤ) ∧ dW.start j idx 0 + (dW.window j 0 : ℤ) < ((320 : ℕ) : ℤ)
      rw [start0, win0, h0]; omega
    | ⟨1, _⟩ =>
      show 0 ≤ dW.start j idx 1 + (dW.window j 1 : ℤ) ∧ dW.start j idx 1 + (dW.window j 1 : ℤ) < ((128 : ℕ) : ℤ)
      rw [start1, win1, h1]; omega)]
  refine congrArg some (funext fun a => Fin.ext ?_)
  match a with
  | ⟨0, _⟩ =>
    show (dW.start j idx 0 + (dW.window j 0 : ℤ)).toNat = r0 + (j 0).val
    rw [start0, win0, h0]; omega
  | ⟨1, _⟩ =>
    show (dW.start j idx 1 + (dW.window j 1 : ℤ)).toNat = c0 + (j 1).val
    rw [start1, win1, h1]; omega

variable {α : Type}

/-- One write: entry (k, q) holds the update at (k - r0, q - c0) inside the window and the old element outside. -/
theorem write_apply (x : S320x128.Idx → α) (idx : IVec S2 32) (upd : S80x32.Idx → α) (r0 c0 : ℕ)
    (hr : r0 + 80 ≤ 320) (hc : c0 + 32 ≤ 128)
    (h0 : (idx (ix1 (0 : Fin 2))).toInt = r0) (h1 : (idx (ix1 (1 : Fin 2))).toInt = c0) (k : Fin 320) (q : Fin 128) :
    Host.scatter dW (fun _ b => b) x idx upd (ix2 k q)
      = if (r0 ≤ k.val ∧ k.val < r0 + 80) ∧ (c0 ≤ q.val ∧ q.val < c0 + 32)
        then upd (ix2 (⟨(k.val - r0) % 80, Nat.mod_lt _ (by decide)⟩ : Fin 80) (⟨(q.val - c0) % 32, Nat.mod_lt _ (by decide)⟩ : Fin 32))
        else x (ix2 k q) := by
  by_cases h : (r0 ≤ k.val ∧ k.val < r0 + 80) ∧ (c0 ≤ q.val ∧ q.val < c0 + 32)
  · rw [if_pos h]
    refine WindowScatter.scatter_set_hit dW x idx upd (ix2 k q) _ ?_ ?_
    · rw [lands _ idx r0 c0 hr hc h0 h1]
      refine congrArg some (funext fun a => Fin.ext ?_)
      match a with
      | ⟨0, _⟩ => show r0 + (k.val - r0) % 80 = k.val; omega
      | ⟨1, _⟩ => show c0 + (q.val - c0) % 32 = q.val; omega
    · intro j' hj'
      rw [lands j' idx r0 c0 hr hc h0 h1] at hj'
      have e := Option.some.inj hj'
      have e0 : r0 + (j' 0).val = k.val := congrArg Fin.val (congrFun e 0)
      have e1 : c0 + (j' 1).val = q.val := congrArg Fin.val (congrFun e 1)
      have hj0 : (j' 0).val < 80 := (j' 0).isLt
      have hj1 : (j' 1).val < 32 := (j' 1).isLt
      rw [eq_ix2 j']
      refine funext fun a => Fin.ext ?_
      match a with
      | ⟨0, _⟩ => show (j' 0).val = (k.val - r0) % 80; omega
      | ⟨1, _⟩ => show (j' 1).val = (q.val - c0) % 32; omega
  · rw [if_neg h]
    refine WindowScatter.scatter_miss dW _ x idx upd (ix2 k q) fun j hj => h ?_
    rw [lands j idx r0 c0 hr hc h0 h1] at hj
    have e := Option.some.inj hj
    have e0 : r0 + (j 0).val = k.val := congrArg Fin.val (congrFun e 0)
    have e1 : c0 + (j 1).val = q.val := congrArg Fin.val (congrFun e 1)
    have hj0 : (j 0).val < 80 := (j 0).isLt
    have hj1 : (j 1).val < 32 := (j 1).isLt
    omega

/-- A start index as the host spells it: two scalar words, each made a one-element array, joined. -/
def startPair (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem startPair_fst (a b : BitVec 32) : startPair a b (ix1 (0 : Fin 2)) = a := rfl
theorem startPair_snd (a b : BitVec 32) : startPair a b (ix1 (1 : Fin 2)) = b := rfl

/-- The matrix after the four writes of `kern` over the constant `z`. -/
def blockDiag (z : S320x128.Idx → α) (kern : S80x32.Idx → α) : S320x128.Idx → α :=
  Host.scatter dW (fun _ b => b)
    (Host.scatter dW (fun _ b => b)
      (Host.scatter dW (fun _ b => b)
        (Host.scatter dW (fun _ b => b) z (startPair 0#32 0#32) kern)
        (startPair 80#32 32#32) kern)
      (startPair 160#32 64#32) kern)
    (startPair 240#32 96#32) kern

/-- Entry (k, q) of it: the weight at (k mod 80, q mod 32) on the diagonal blocks, the old element off them. -/
theorem blockDiag_apply (z : S320x128.Idx → α) (kern : S80x32.Idx → α) (k : Fin 320) (q : Fin 128) :
    blockDiag z kern (ix2 k q)
      = if k.val / 80 = q.val / 32
        then kern (ix2 (⟨k.val % 80, Nat.mod_lt _ (by decide)⟩ : Fin 80) (⟨q.val % 32, Nat.mod_lt _ (by decide)⟩ : Fin 32))
        else z (ix2 k q) := by
  have hk := k.isLt
  have hq := q.isLt
  unfold blockDiag
  rw [write_apply _ (startPair 240#32 96#32) kern 240 96 (by decide) (by decide) (by rw [startPair_fst]; decide) (by rw [startPair_snd]; decide),
    write_apply _ (startPair 160#32 64#32) kern 160 64 (by decide) (by decide) (by rw [startPair_fst]; decide) (by rw [startPair_snd]; decide),
    write_apply _ (startPair 80#32 32#32) kern 80 32 (by decide) (by decide) (by rw [startPair_fst]; decide) (by rw [startPair_snd]; decide),
    write_apply _ (startPair 0#32 0#32) kern 0 0 (by decide) (by decide) (by rw [startPair_fst]; decide) (by rw [startPair_snd]; decide)]
  split_ifs <;>
    first
    | (exfalso; omega)
    | rfl
    | (refine congrArg₂ (fun a b => kern (ix2 a b)) (Fin.ext ?_) (Fin.ext ?_) <;> (simp only []; omega))

end Cert.KernelIdeal.Weights

end
-- ==== Proof.LibBlockSum.lean ====
/-
  A sum against a column that vanishes outside one block.

  Index the A·B terms of a sum by pairs (a, b), a the block and b the place inside it (the pair (a, b) is the term
  b + B·a). If the second factor of every term is zero outside block j, and inside block j is v b, then only block
  j contributes, and the sum is the sum over b of the first factor at (j, b) times v b. A product with zero is zero
  for every extended real, the infinities included, so nothing is assumed of the first factors.
-/
import Mathlib.Algebra.BigOperators.Fin
import Mathlib.Logic.Equiv.Fin.Basic
import Mathlib.Data.EReal.Basic

namespace Idealize.ShloMosaic.BlockSum

open scoped BigOperators

theorem sum_mul_block (A B : ℕ) (j : Fin A) (x col : Fin (A * B) → EReal)
    (v : Fin B → EReal) (hcol : ∀ (a : Fin A) (b : Fin B), col (finProdFinEquiv (a, b)) = if a = j then v b else 0) :
    ∑ k, x k * col k = ∑ b, x (finProdFinEquiv (j, b)) * v b := by
  rw [← Equiv.sum_comp finProdFinEquiv, Fintype.sum_prod_type, Finset.sum_eq_single j]
  · refine Finset.sum_congr rfl fun b _ => ?_
    rw [hcol, if_pos rfl]
  · intro a _ ha
    refine Finset.sum_eq_zero fun b _ => ?_
    rw [hcol, if_neg ha, mul_zero]
  · intro h
    exact absurd (Finset.mem_univ j) h

end Idealize.ShloMosaic.BlockSum
-- ==== Proof.Unpack.lean ====
/-
  The packed projection, unpacked, is the plain projection: one entry.

  Write X for the feature matrix [786432, 80] (one row per pair of a batch element and a vertex), K for the weight
  [80, 32] and β for the bias. The program views X as [196608, 320], four consecutive rows of X side by side in one
  packed row; multiplies by the block-diagonal matrix [320, 128] that has K on its four diagonal blocks and zero
  elsewhere; adds the bias row [1, 128] that is β four times; and views the result [196608, 128] as [786432, 32] and
  then as [16, 49152, 32].

  Entry (b, v, c) of the last view is entry (R, c) of the middle one with R = b·49152 + v, which is entry
  (R / 4, (R mod 4)·32 + c) of the packed result. That entry is the sum over k < 320 of packed-row (R / 4) at k times
  the block-diagonal column (R mod 4)·32 + c at k. The column is zero outside block j = R mod 4 and is column c of K
  inside it, so the sum is over the 80 places b of block j alone; and place b of block j of packed row R / 4 is X at
  (4·(R / 4) + j, b) = X (R, b). The bias row at (R mod 4)·32 + c is β at c. So the entry is
  Σ_b X (R, b) · K (b, c) + β c. A product with the zero of the other blocks is zero whatever the other factor is, an
  infinity included, so nothing is assumed of X.
-/
import proofs.«111723_j26714696581338_2_alg».proof.Proof.Gen.KernelIdeal
import proofs.«111723_j26714696581338_2_alg».proof.Proof.WeightBlocks
import proofs.«111723_j26714696581338_2_alg».proof.Proof.LibBlockSum
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Proj

open Cert.KernelIdeal Idealize.ShloMosaic Idealize.ShloMosaic.ValueIdx
open scoped BigOperators

/-- The bias row [1, 128]: the bias [1, 1, 32] laid four times side by side. -/
def biasTile {α : Type} (b : S1x1x32.Idx → α) : S1x128.Idx → α :=
  shapeCast S1x128 (broadcastInDim S1x1x4x32 ![0, 1, 2, 3] Facts₀.bcast_S1x1x1x32_S1x1x4x32_0_1_2_3
    (shapeCast S1x1x1x32 (shapeCast S1x32 b Facts₀.shapeCasts_S1x1x32_S1x32) Facts₀.shapeCasts_S1x32_S1x1x1x32))
    Facts₀.shapeCasts_S1x1x4x32_S1x128

/-- The zero matrix the weight blocks are written into. -/
def zeroMat : S320x128.Idx → EReal :=
  broadcastInDim S320x128 ![] Facts₀.bcast_S_S320x128 (constant (F := Ideal) S_ .f32 0x00000000#32)

theorem zeroMat_apply (i : S320x128.Idx) : zeroMat i = 0 := by
  unfold zeroMat
  rw [broadcastInDim_scalar_apply]
  exact Ideal.ofBits_zero_f32

/-- The launch's whole result from its three operands: packed rows times the weight, plus the bias row. -/
def packedOut (A : S196608x320.Idx → EReal) (W : S320x128.Idx → EReal) (Bv : S1x128.Idx → EReal) : S196608x128.Idx → EReal :=
  fun i => (∑ k : Fin 320, A (ix2 (i 0) k) * W (ix2 k (i 1))) + Bv (ix2 (0 : Fin 1) (i 1))

/-- The two reshapes after the launch. -/
def unpack {α : Type} (y : S196608x128.Idx → α) : S16x49152x32.Idx → α :=
  shapeCast S16x49152x32 (shapeCast S786432x32 y Facts₀.shapeCasts_S196608x128_S786432x32) Facts₀.shapeCasts_S786432x32_S16x49152x32

/-- An entry of the unpacked array is the entry of the packed one with the same row-major position. -/
theorem unpack_apply {α : Type} (y : S196608x128.Idx → α) (i : S16x49152x32.Idx) (r : Fin 196608) (q : Fin 128)
    (h : r.val * 128 + q.val = ((i 0).val * 49152 + (i 1).val) * 32 + (i 2).val) : unpack y i = y (ix2 r q) := by
  have hi0 : (i 0).val < 16 := (i 0).isLt
  have hi1 : (i 1).val < 49152 := (i 1).isLt
  have hi2 : (i 2).val < 32 := (i 2).isLt
  unfold unpack
  rw [shapeCast_apply _ Facts₀.shapeCasts_S786432x32_S16x49152x32 i
      (ix2 (⟨(i 0).val * 49152 + (i 1).val, by omega⟩ : Fin 786432) (i 2))
      (by rewrite [Shape.rowMajor_val_two, Shape.rowMajor_val_three]; rfl),
    shapeCast_apply y Facts₀.shapeCasts_S196608x128_S786432x32 _ (ix2 r q)
      (by rewrite [Shape.rowMajor_val_two, Shape.rowMajor_val_two]; exact h)]

/-- The bias row at column q is the bias at q mod 32. -/
theorem biasTile_apply {α : Type} (b : S1x1x32.Idx → α) (q : Fin 128) :
    biasTile b (ix2 (0 : Fin 1) q)
      = b (ix3 (0 : Fin 1) (0 : Fin 1) (⟨q.val % 32, Nat.mod_lt _ (by decide)⟩ : Fin 32)) := by
  have hq : q.val < 128 := q.isLt
  unfold biasTile
  rw [shapeCast_apply _ Facts₀.shapeCasts_S1x1x4x32_S1x128 (ix2 (0 : Fin 1) q)
      (ix4 (0 : Fin 1) (0 : Fin 1) (⟨q.val / 32, by omega⟩ : Fin 4) (⟨q.val % 32, Nat.mod_lt _ (by decide)⟩ : Fin 32))
      (by rewrite [Shape.rowMajor_val_four, Shape.rowMajor_val_two]
          show ((0 * 1 + 0) * 4 + q.val / 32) * 32 + q.val % 32 = 0 * 128 + q.val
          omega),
    broadcastInDim_apply _ Facts₀.bcast_S1x1x1x32_S1x1x4x32_0_1_2_3 _ _
      (ix4 (0 : Fin 1) (0 : Fin 1) (0 : Fin 1) (⟨q.val % 32, Nat.mod_lt _ (by decide)⟩ : Fin 32))
      (fun a => by
        match a with
        | ⟨0, _⟩ => rfl
        | ⟨1, _⟩ => rfl
        | ⟨2, _⟩ => rfl
        | ⟨3, _⟩ => rfl),
    shapeCast_apply _ Facts₀.shapeCasts_S1x32_S1x1x1x32 _
      (ix2 (0 : Fin 1) (⟨q.val % 32, Nat.mod_lt _ (by decide)⟩ : Fin 32))
      (by rewrite [Shape.rowMajor_val_two, Shape.rowMajor_val_four]; rfl),
    shapeCast_apply b Facts₀.shapeCasts_S1x1x32_S1x32 _
      (ix3 (0 : Fin 1) (0 : Fin 1) (⟨q.val % 32, Nat.mod_lt _ (by decide)⟩ : Fin 32))
      (by rewrite [Shape.rowMajor_val_three, Shape.rowMajor_val_two]; rfl)]

/-- THE ENTRY: the unpacked packed projection at (b, v, c) is row R = b·49152 + v of the features against column c
    of the weight, plus the bias at c. -/
theorem unpack_entry (X : S786432x80.Idx → EReal) (kern : S80x32.Idx → EReal) (bias : S1x1x32.Idx → EReal)
    (i : S16x49152x32.Idx) (R : Fin 786432) (hR : R.val = (i 0).val * 49152 + (i 1).val) :
    unpack (packedOut (shapeCast S196608x320 X Facts₀.shapeCasts_S786432x80_S196608x320)
        (Weights.blockDiag zeroMat kern) (biasTile bias)) i
      = (∑ b : Fin 80, X (ix2 R b) * kern (ix2 b (i 2))) + bias (ix3 (0 : Fin 1) (0 : Fin 1) (i 2)) := by
  have hi0 : (i 0).val < 16 := (i 0).isLt
  have hi1 : (i 1).val < 49152 := (i 1).isLt
  have hi2 : (i 2).val < 32 := (i 2).isLt
  have hRlt : R.val < 786432 := R.isLt
  -- the packed row, the block, the packed column
  let r : Fin 196608 := ⟨R.val / 4, by omega⟩
  let j : Fin 4 := ⟨R.val % 4, Nat.mod_lt _ (by decide)⟩
  let q : Fin 128 := ⟨R.val % 4 * 32 + (i 2).val, by omega⟩
  rw [unpack_apply _ i r q (by show R.val / 4 * 128 + (R.val % 4 * 32 + (i 2).val) = _; omega)]
  show (∑ k : Fin 320, shapeCast S196608x320 X Facts₀.shapeCasts_S786432x80_S196608x320 (ix2 r k)
        * Weights.blockDiag zeroMat kern (ix2 k q)) + biasTile bias (ix2 (0 : Fin 1) q) = _
  refine congrArg₂ (· + ·) ?_ ?_
  · refine (BlockSum.sum_mul_block 4 80 j
      (fun k => shapeCast S196608x320 X Facts₀.shapeCasts_S786432x80_S196608x320 (ix2 r k))
      (fun k => Weights.blockDiag zeroMat kern (ix2 k q)) (fun b => kern (ix2 b (i 2))) ?_).trans ?_
    · intro a b
      have ha : a.val < 4 := a.isLt
      have hb : b.val < 80 := b.isLt
      have hval : (finProdFinEquiv (a, b)).val = b.val + 80 * a.val := rfl
      show Weights.blockDiag zeroMat kern (ix2 (finProdFinEquiv (a, b)) q) = _
      rw [Weights.blockDiag_apply]
      by_cases haj : a = j
      · have hv : a.val = R.val % 4 := congrArg Fin.val haj
        rw [if_pos haj, if_pos (by rw [hval]; show (b.val + 80 * a.val) / 80 = (R.val % 4 * 32 + (i 2).val) / 32; omega)]
        refine congrArg₂ (fun u v => kern (ix2 u v)) (Fin.ext ?_) (Fin.ext ?_)
        · show (finProdFinEquiv (a, b)).val % 80 = b.val
          rw [hval]; omega
        · show (R.val % 4 * 32 + (i 2).val) % 32 = (i 2).val
          omega
      · have hv : a.val ≠ R.val % 4 := fun e => haj (Fin.ext e)
        rw [if_neg haj, if_neg (by rw [hval]; show ¬ (b.val + 80 * a.val) / 80 = (R.val % 4 * 32 + (i 2).val) / 32; omega)]
        exact zeroMat_apply _
    · refine Finset.sum_congr rfl fun b _ => congrArg (· * kern (ix2 b (i 2))) ?_
      have hb : b.val < 80 := b.isLt
      have hval : (finProdFinEquiv (j, b)).val = b.val + 80 * (R.val % 4) := rfl
      refine shapeCast_apply X Facts₀.shapeCasts_S786432x80_S196608x320 _ (ix2 R b) ?_
      rewrite [Shape.rowMajor_val_two, Shape.rowMajor_val_two]
      show R.val * 80 + b.val = R.val / 4 * 320 + (finProdFinEquiv (j, b)).val
      rw [hval]; omega
  · rw [biasTile_apply]
    refine congrArg (fun u => bias (ix3 (0 : Fin 1) (0 : Fin 1) u)) (Fin.ext ?_)
    show (R.val % 4 * 32 + (i 2).val) % 32 = (i 2).val
    omega

end Cert.KernelIdeal.Proj

end
-- ==== Proof.LibNaryFive.lean ====
/-
  A host operation over five literal operand buffers (a five-operand concatenate), read at its result buffer.

  The library states the result of an n-ary operation with the operands' contents under a binder,
  `fun k => F (xs k)`, where the buffer `xs k` is not a literal and no further result lemma applies. For a literal
  family of five buffers the contents are listed one by one instead, each at its own buffer, so that reading a
  stretch of host operations goes on into each operand. (The library has the four-operand form, `nary4_result`.)
-/
import Idealize.ShloMosaic.Lib.StableHlo.Run

noncomputable section

namespace Idealize.ShloMosaic.StableHlo

variable {τ : Topo} {sig : RefSig} {Val : EltTy → Type}
variable {x a b c d y : Ref sig .tc}

theorem nary5_result
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

/-- The same with the result buffer un-indexed, for use as a `simp` lemma beside the library's primed result lemmas. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) :=
  nary5_result f hxs hy F

end Idealize.ShloMosaic.StableHlo

end
-- ==== Proof.ChebStages.lean ====
/-
  The feature matrix the host lines compute, read stage by stage.

  Write L for the sparse matrix given by the index lists and the values: (L·X) row i is the sum, over the entries
  e of the lists whose row index is i, of value e times row (column index e) of X — a gather of rows of X, a scaling
  by the values, and a scatter-add by row index into zero (`laplace`); a negative column index is first moved up by
  the number of vertices. The host lines compute the signal as a matrix X₀ [vertices, features × batch] (`signal`),
  then X₁ = L·X₀ and X_{k+1} = 2·(L·X_k) − X_{k−1} for k = 1, 2, 3 (`chebNext`), and stack the five terms,
  transposed and flattened, into the feature matrix [786432, 80] (`stack5`).

  The lines are read in five stretches, one per term and one for the stacking. A stretch is read from ANY contents
  before it: it computes its term from the buffers of the earlier terms and the argument buffers it reads, and
  leaves those buffers as they were. Chaining the five gives the feature matrix as `features` of the arguments.
-/
import proofs.«111723_j26714696581338_2_alg».proof.Proof.Gen.KernelIdeal.Launch
import proofs.«111723_j26714696581338_2_alg».proof.Proof.LibNaryFive
import Idealize.ShloMosaic.Lib.StableHlo.Run

set_option maxRecDepth 16384

noncomputable section

namespace Cert.KernelIdeal.Cheb

open Cert.KernelIdeal Cert.KernelIdeal.Facts₀ Cert.KernelIdeal.Facts
open Idealize.ShloMosaic Idealize.ShloMosaic.TcCoe Idealize.SL.Sem Idealize.ShloMosaic.StableHlo

variable {F : FTy → Type} [FloatOps F]

/-! ## The terms -/

/-- The signal [batch, vertices, features] as the matrix [vertices, features × batch]. -/
def signal (x : (⟨S16x49152x16, .f32⟩ : BufTy).Contents (Elt F)) : (⟨S49152x256, .f32⟩ : BufTy).Contents (Elt F) :=
  shapeCast S49152x256 (transpose S49152x16x16 [1, 2, 0] x transposes_S16x49152x16_S49152x16x16_1_2_0) shapeCasts_S49152x16x16_S49152x256

/-- L·X: gather the rows of X at the column indices, scale by the values, scatter-add by row index into zero. -/
def laplace (X : (⟨S49152x256, .f32⟩ : BufTy).Contents (Elt F)) (rows cols : (⟨S393216, .i32⟩ : BufTy).Contents (Elt F))
    (vals : (⟨S393216, .f32⟩ : BufTy).Contents (Elt F)) : (⟨S49152x256, .f32⟩ : BufTy).Contents (Elt F) :=
  Host.scatterAdd scatter_S49152x256_S393216x1_S393216x256_1_0_0_1
    (broadcastInDim S49152x256 ![] bcast_S_S49152x256 (constant S_ .f32 0x00000000#32))
    (broadcastInDim S393216x1 ![0] bcast_S393216_S393216x1_0 rows)
    (mulf (broadcastInDim S393216x256 ![0, 1] bcast_S393216x1_S393216x256_0_1 (broadcastInDim S393216x1 ![0] bcast_S393216_S393216x1_0 vals))
      (Host.gather gather_S49152x256_S393216x1_S393216x256_1_0_n_n_0_1_1256 X
        (broadcastInDim S393216x1 ![0] bcast_S393216_S393216x1_0
          (select (cmpi .slt cols (broadcastInDim S393216 ![] bcast_S_S393216 (constantI S_ 32 0#32)))
            (addi cols (broadcastInDim S393216 ![] bcast_S_S393216 (constantI S_ 32 49152#32))) cols))))

/-- 2·(L·X) − X': the next term of the recurrence from the last two. -/
def chebNext (X Xp : (⟨S49152x256, .f32⟩ : BufTy).Contents (Elt F)) (rows cols : (⟨S393216, .i32⟩ : BufTy).Contents (Elt F))
    (vals : (⟨S393216, .f32⟩ : BufTy).Contents (Elt F)) : (⟨S49152x256, .f32⟩ : BufTy).Contents (Elt F) :=
  subf (mulf (broadcastInDim S49152x256 ![] bcast_S_S49152x256 (constant S_ .f32 0x40000000#32)) (laplace X rows cols vals)) Xp

/-- The five terms stacked [5, vertices, 256], seen as [5, vertices, features, batch], transposed to
    [batch, vertices, features, 5] and flattened to [batch × vertices, features × 5]. -/
def stack5 (x0 x1 x2 x3 x4 : (⟨S49152x256, .f32⟩ : BufTy).Contents (Elt F)) : (⟨S786432x80, .f32⟩ : BufTy).Contents (Elt F) :=
  shapeCast S786432x80
    (transpose S16x49152x16x5 [3, 1, 2, 0]
      (shapeCast S5x49152x16x16
        (concatenate S5x49152x256 0
          [⟨S1x49152x256, broadcastInDim S1x49152x256 ![1, 2] bcast_S49152x256_S1x49152x256_1_2 x0⟩,
           ⟨S1x49152x256, broadcastInDim S1x49152x256 ![1, 2] bcast_S49152x256_S1x49152x256_1_2 x1⟩,
           ⟨S1x49152x256, broadcastInDim S1x49152x256 ![1, 2] bcast_S49152x256_S1x49152x256_1_2 x2⟩,
           ⟨S1x49152x256, broadcastInDim S1x49152x256 ![1, 2] bcast_S49152x256_S1x49152x256_1_2 x3⟩,
           ⟨S1x49152x256, broadcastInDim S1x49152x256 ![1, 2] bcast_S49152x256_S1x49152x256_1_2 x4⟩]
          concatenates_S1x49152x256_S1x49152x256_S1x49152x256_S1x49152x256_S1x49152x256_S5x49152x256_d0)
        shapeCasts_S5x49152x256_S5x49152x16x16)
      transposes_S5x49152x16x16_S16x49152x16x5_3_1_2_0)
    shapeCasts_S16x49152x16x5_S786432x80

section Terms
variable (x : (⟨S16x49152x16, .f32⟩ : BufTy).Contents (Elt F)) (rows cols : (⟨S393216, .i32⟩ : BufTy).Contents (Elt F))
  (vals : (⟨S393216, .f32⟩ : BufTy).Contents (Elt F))
def term1 := laplace (signal x) rows cols vals
def term2 := chebNext (term1 x rows cols vals) (signal x) rows cols vals
def term3 := chebNext (term2 x rows cols vals) (term1 x rows cols vals) rows cols vals
def term4 := chebNext (term3 x rows cols vals) (term2 x rows cols vals) rows cols vals
/-- The feature matrix [786432, 80] of the arguments. -/
def features := stack5 (signal x) (term1 x rows cols vals) (term2 x rows cols vals) (term3 x rows cols vals) (term4 x rows cols vals)
end Terms

/-! ## The host lines in six stretches -/

abbrev seg1 : List (HloOp τ sig (Elt F)) :=
  ( StableHlo.unary main_arg0 main_v0 ((transpose S49152x16x16 [1, 2, 0] · transposes_S16x49152x16_S49152x16x16_1_2_0) : (⟨S16x49152x16, .f32⟩ : BufTy).Contents (Elt F) → (⟨S49152x16x16, .f32⟩ : BufTy).Contents (Elt F))
  :: StableHlo.reshape main_v0 main_v1 rfl shapeCasts_S49152x16x16_S49152x256
  :: StableHlo.unary main_arg3 main_v2 (broadcastInDim S393216x1 ![0] bcast_S393216_S393216x1_0 : (⟨S393216, .f32⟩ : BufTy).Contents (Elt F) → (⟨S393216x1, .f32⟩ : BufTy).Contents (Elt F))
  :: StableHlo.nullary main_c (constantI S_ 32 0#32)
  :: StableHlo.unary main_c main_v3 (broadcastInDim S393216 ![] bcast_S_S393216 : (⟨S_, .i32⟩ : BufTy).Contents (Elt F) → (⟨S393216, .i32⟩ : BufTy).Contents (Elt F))
  :: StableHlo.binary main_arg2 main_v3 main_v4 (cmpi .slt : (⟨S393216, .i32⟩ : BufTy).Contents (Elt F) → (⟨S393216, .i32⟩ : BufTy).Contents (Elt F) → (⟨S393216, .i1⟩ : BufTy).Contents (Elt F))
  :: StableHlo.nullary main_c_0 (constantI S_ 32 49152#32)
  :: StableHlo.unary main_c_0 main_v5 (broadcastInDim S393216 ![] bcast_S_S393216 : (⟨S_, .i32⟩ : BufTy).Contents (Elt F) → (⟨S393216, .i32⟩ : BufTy).Contents (Elt F))
  :: StableHlo.binary main_arg2 main_v5 main_v6 (addi : (⟨S393216, .i32⟩ : BufTy).Contents (Elt F) → (⟨S393216, .i32⟩ : BufTy).Contents (Elt F) → (⟨S393216, .i32⟩ : BufTy).Contents (Elt F))
  :: StableHlo.ternary main_v4 main_v6 main_arg2 main_v7 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F))
  :: StableHlo.unary main_v7 main_v8 (broadcastInDim S393216x1 ![0] bcast_S393216_S393216x1_0 : (⟨S393216, .i32⟩ : BufTy).Contents (Elt F) → (⟨S393216x1, .i32⟩ : BufTy).Contents (Elt F))
  :: StableHlo.binary main_v1 main_v8 main_v9 ((fun x i => Host.gather gather_S49152x256_S393216x1_S393216x256_1_0_n_n_0_1_1256 x i) : (⟨S49152x256, .f32⟩ : BufTy).Contents (Elt F) → (⟨S393216x1, .i32⟩ : BufTy).Contents (Elt F) → (⟨S393216x256, .f32⟩ : BufTy).Contents (Elt F))
  :: StableHlo.unary main_v2 main_v10 (broadcastInDim S393216x256 ![0, 1] bcast_S393216x1_S393216x256_0_1 : (⟨S393216x1, .f32⟩ : BufTy).Contents (Elt F) → (⟨S393216x256, .f32⟩ : BufTy).Contents (Elt F))
  :: StableHlo.binary main_v10 main_v9 main_v11 (mulf : (⟨S393216x256, .f32⟩ : BufTy).Contents (Elt F) → (⟨S393216x256, .f32⟩ : BufTy).Contents (Elt F) → (⟨S393216x256, .f32⟩ : BufTy).Contents (Elt F))
  :: StableHlo.nullary main_cst (constant S_ .f32 0x00000000#32)
  :: StableHlo.unary main_cst main_v12 (broadcastInDim S49152x256 ![] bcast_S_S49152x256 : (⟨S_, .f32⟩ : BufTy).Contents (Elt F) → (⟨S49152x256, .f32⟩ : BufTy).Contents (Elt F))
  :: StableHlo.unary main_arg1 main_v13 (broadcastInDim S393216x1 ![0] bcast_S393216_S393216x1_0 : (⟨S393216, .i32⟩ : BufTy).Contents (Elt F) → (⟨S393216x1, .i32⟩ : BufTy).Contents (Elt F))
  :: StableHlo.ternary main_v12 main_v13 main_v11 main_v14 ((fun x i u => Host.scatterAdd scatter_S49152x256_S393216x1_S393216x256_1_0_0_1 x i u) : (⟨S49152x256, .f32⟩ : BufTy).Contents (Elt F) → (⟨S393216x1, .i32⟩ : BufTy).Contents (Elt F) → (⟨S393216x256, .f32⟩ : BufTy).Contents (Elt F) → (⟨S49152x256, .f32⟩ : BufTy).Contents (Elt F))
  :: [] )

abbrev seg2 : List (HloOp τ sig (Elt F)) :=
  ( StableHlo.unary main_arg3 main_v15 (broadcastInDim S393216x1 ![0] bcast_S393216_S393216x1_0 : (⟨S393216, .f32⟩ : BufTy).Contents (Elt F) → (⟨S393216x1, .f32⟩ : BufTy).Contents (Elt F))
  :: StableHlo.nullary main_c_1 (constantI S_ 32 0#32)
  :: StableHlo.unary main_c_1 main_v16 (broadcastInDim S393216 ![] bcast_S_S393216 : (⟨S_, .i32⟩ : BufTy).Contents (Elt F) → (⟨S393216, .i32⟩ : BufTy).Contents (Elt F))
  :: StableHlo.binary main_arg2 main_v16 main_v17 (cmpi .slt : (⟨S393216, .i32⟩ : BufTy).Contents (Elt F) → (⟨S393216, .i32⟩ : BufTy).Contents (Elt F) → (⟨S393216, .i1⟩ : BufTy).Contents (Elt F))
  :: StableHlo.nullary main_c_2 (constantI S_ 32 49152#32)
  :: StableHlo.unary main_c_2 main_v18 (broadcastInDim S393216 ![] bcast_S_S393216 : (⟨S_, .i32⟩ : BufTy).Contents (Elt F) → (⟨S393216, .i32⟩ : BufTy).Contents (Elt F))
  :: StableHlo.binary main_arg2 main_v18 main_v19 (addi : (⟨S393216, .i32⟩ : BufTy).Contents (Elt F) → (⟨S393216, .i32⟩ : BufTy).Contents (Elt F) → (⟨S393216, .i32⟩ : BufTy).Contents (Elt F))
  :: StableHlo.ternary main_v17 main_v19 main_arg2 main_v20 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F))
  :: StableHlo.unary main_v20 main_v21 (broadcastInDim S393216x1 ![0] bcast_S393216_S393216x1_0 : (⟨S393216, .i32⟩ : BufTy).Contents (Elt F) → (⟨S393216x1, .i32⟩ : BufTy).Contents (Elt F))
  :: StableHlo.binary main_v14 main_v21 main_v22 ((fun x i => Host.gather gather_S49152x256_S393216x1_S393216x256_1_0_n_n_0_1_1256 x i) : (⟨S49152x256, .f32⟩ : BufTy).Contents (Elt F) → (⟨S393216x1, .i32⟩ : BufTy).Contents (Elt F) → (⟨S393216x256, .f32⟩ : BufTy).Contents (Elt F))
  :: StableHlo.unary main_v15 main_v23 (broadcastInDim S393216x256 ![0, 1] bcast_S393216x1_S393216x256_0_1 : (⟨S393216x1, .f32⟩ : BufTy).Contents (Elt F) → (⟨S393216x256, .f32⟩ : BufTy).Contents (Elt F))
  :: StableHlo.binary main_v23 main_v22 main_v24 (mulf : (⟨S393216x256, .f32⟩ : BufTy).Contents (Elt F) → (⟨S393216x256, .f32⟩ : BufTy).Contents (Elt F) → (⟨S393216x256, .f32⟩ : BufTy).Contents (Elt F))
  :: StableHlo.nullary main_cst_3 (constant S_ .f32 0x00000000#32)
  :: StableHlo.unary main_cst_3 main_v25 (broadcastInDim S49152x256 ![] bcast_S_S49152x256 : (⟨S_, .f32⟩ : BufTy).Contents (Elt F) → (⟨S49152x256, .f32⟩ : BufTy).Contents (Elt F))
  :: StableHlo.unary main_arg1 main_v26 (broadcastInDim S393216x1 ![0] bcast_S393216_S393216x1_0 : (⟨S393216, .i32⟩ : BufTy).Contents (Elt F) → (⟨S393216x1, .i32⟩ : BufTy).Contents (Elt F))
  :: StableHlo.ternary main_v25 main_v26 main_v24 main_v27 ((fun x i u => Host.scatterAdd scatter_S49152x256_S393216x1_S393216x256_1_0_0_1 x i u) : (⟨S49152x256, .f32⟩ : BufTy).Contents (Elt F) → (⟨S393216x1, .i32⟩ : BufTy).Contents (Elt F) → (⟨S393216x256, .f32⟩ : BufTy).Contents (Elt F) → (⟨S49152x256, .f32⟩ : BufTy).Contents (Elt F))
  :: StableHlo.nullary main_cst_4 (constant S_ .f32 0x40000000#32)
  :: StableHlo.unary main_cst_4 main_v28 (broadcastInDim S49152x256 ![] bcast_S_S49152x256 : (⟨S_, .f32⟩ : BufTy).Contents (Elt F) → (⟨S49152x256, .f32⟩ : BufTy).Contents (Elt F))
  :: StableHlo.binary main_v28 main_v27 main_v29 (mulf : (⟨S49152x256, .f32⟩ : BufTy).Contents (Elt F) → (⟨S49152x256, .f32⟩ : BufTy).Contents (Elt F) → (⟨S49152x256, .f32⟩ : BufTy).Contents (Elt F))
  :: StableHlo.binary main_v29 main_v1 main_v30 (subf : (⟨S49152x256, .f32⟩ : BufTy).Contents (Elt F) → (⟨S49152x256, .f32⟩ : BufTy).Contents (Elt F) → (⟨S49152x256, .f32⟩ : BufTy).Contents (Elt F))
  :: [] )

abbrev seg3 : List (HloOp τ sig (Elt F)) :=
  ( StableHlo.unary main_arg3 main_v31 (broadcastInDim S393216x1 ![0] bcast_S393216_S393216x1_0 : (⟨S393216, .f32⟩ : BufTy).Contents (Elt F) → (⟨S393216x1, .f32⟩ : BufTy).Contents (Elt F))
  :: StableHlo.nullary main_c_5 (constantI S_ 32 0#32)
  :: StableHlo.unary main_c_5 main_v32 (broadcastInDim S393216 ![] bcast_S_S393216 : (⟨S_, .i32⟩ : BufTy).Contents (Elt F) → (⟨S393216, .i32⟩ : BufTy).Contents (Elt F))
  :: StableHlo.binary main_arg2 main_v32 main_v33 (cmpi .slt : (⟨S393216, .i32⟩ : BufTy).Contents (Elt F) → (⟨S393216, .i32⟩ : BufTy).Contents (Elt F) → (⟨S393216, .i1⟩ : BufTy).Contents (Elt F))
  :: StableHlo.nullary main_c_6 (constantI S_ 32 49152#32)
  :: StableHlo.unary main_c_6 main_v34 (broadcastInDim S393216 ![] bcast_S_S393216 : (⟨S_, .i32⟩ : BufTy).Contents (Elt F) → (⟨S393216, .i32⟩ : BufTy).Contents (Elt F))
  :: StableHlo.binary main_arg2 main_v34 main_v35 (addi : (⟨S393216, .i32⟩ : BufTy).Contents (Elt F) → (⟨S393216, .i32⟩ : BufTy).Contents (Elt F) → (⟨S393216, .i32⟩ : BufTy).Contents (Elt F))
  :: StableHlo.ternary main_v33 main_v35 main_arg2 main_v36 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F))
  :: StableHlo.unary main_v36 main_v37 (broadcastInDim S393216x1 ![0] bcast_S393216_S393216x1_0 : (⟨S393216, .i32⟩ : BufTy).Contents (Elt F) → (⟨S393216x1, .i32⟩ : BufTy).Contents (Elt F))
  :: StableHlo.binary main_v30 main_v37 main_v38 ((fun x i => Host.gather gather_S49152x256_S393216x1_S393216x256_1_0_n_n_0_1_1256 x i) : (⟨S49152x256, .f32⟩ : BufTy).Contents (Elt F) → (⟨S393216x1, .i32⟩ : BufTy).Contents (Elt F) → (⟨S393216x256, .f32⟩ : BufTy).Contents (Elt F))
  :: StableHlo.unary main_v31 main_v39 (broadcastInDim S393216x256 ![0, 1] bcast_S393216x1_S393216x256_0_1 : (⟨S393216x1, .f32⟩ : BufTy).Contents (Elt F) → (⟨S393216x256, .f32⟩ : BufTy).Contents (Elt F))
  :: StableHlo.binary main_v39 main_v38 main_v40 (mulf : (⟨S393216x256, .f32⟩ : BufTy).Contents (Elt F) → (⟨S393216x256, .f32⟩ : BufTy).Contents (Elt F) → (⟨S393216x256, .f32⟩ : BufTy).Contents (Elt F))
  :: StableHlo.nullary main_cst_7 (constant S_ .f32 0x00000000#32)
  :: StableHlo.unary main_cst_7 main_v41 (broadcastInDim S49152x256 ![] bcast_S_S49152x256 : (⟨S_, .f32⟩ : BufTy).Contents (Elt F) → (⟨S49152x256, .f32⟩ : BufTy).Contents (Elt F))
  :: StableHlo.unary main_arg1 main_v42 (broadcastInDim S393216x1 ![0] bcast_S393216_S393216x1_0 : (⟨S393216, .i32⟩ : BufTy).Contents (Elt F) → (⟨S393216x1, .i32⟩ : BufTy).Contents (Elt F))
  :: StableHlo.ternary main_v41 main_v42 main_v40 main_v43 ((fun x i u => Host.scatterAdd scatter_S49152x256_S393216x1_S393216x256_1_0_0_1 x i u) : (⟨S49152x256, .f32⟩ : BufTy).Contents (Elt F) → (⟨S393216x1, .i32⟩ : BufTy).Contents (Elt F) → (⟨S393216x256, .f32⟩ : BufTy).Contents (Elt F) → (⟨S49152x256, .f32⟩ : BufTy).Contents (Elt F))
  :: StableHlo.nullary main_cst_8 (constant S_ .f32 0x40000000#32)
  :: StableHlo.unary main_cst_8 main_v44 (broadcastInDim S49152x256 ![] bcast_S_S49152x256 : (⟨S_, .f32⟩ : BufTy).Contents (Elt F) → (⟨S49152x256, .f32⟩ : BufTy).Contents (Elt F))
  :: StableHlo.binary main_v44 main_v43 main_v45 (mulf : (⟨S49152x256, .f32⟩ : BufTy).Contents (Elt F) → (⟨S49152x256, .f32⟩ : BufTy).Contents (Elt F) → (⟨S49152x256, .f32⟩ : BufTy).Contents (Elt F))
  :: StableHlo.binary main_v45 main_v14 main_v46 (subf : (⟨S49152x256, .f32⟩ : BufTy).Contents (Elt F) → (⟨S49152x256, .f32⟩ : BufTy).Contents (Elt F) → (⟨S49152x256, .f32⟩ : BufTy).Contents (Elt F))
  :: [] )

abbrev seg4 : List (HloOp τ sig (Elt F)) :=
  ( StableHlo.unary main_arg3 main_v47 (broadcastInDim S393216x1 ![0] bcast_S393216_S393216x1_0 : (⟨S393216, .f32⟩ : BufTy).Contents (Elt F) → (⟨S393216x1, .f32⟩ : BufTy).Contents (Elt F))
  :: StableHlo.nullary main_c_9 (constantI S_ 32 0#32)
  :: StableHlo.unary main_c_9 main_v48 (broadcastInDim S393216 ![] bcast_S_S393216 : (⟨S_, .i32⟩ : BufTy).Contents (Elt F) → (⟨S393216, .i32⟩ : BufTy).Contents (Elt F))
  :: StableHlo.binary main_arg2 main_v48 main_v49 (cmpi .slt : (⟨S393216, .i32⟩ : BufTy).Contents (Elt F) → (⟨S393216, .i32⟩ : BufTy).Contents (Elt F) → (⟨S393216, .i1⟩ : BufTy).Contents (Elt F))
  :: StableHlo.nullary main_c_10 (constantI S_ 32 49152#32)
  :: StableHlo.unary main_c_10 main_v50 (broadcastInDim S393216 ![] bcast_S_S393216 : (⟨S_, .i32⟩ : BufTy).Contents (Elt F) → (⟨S393216, .i32⟩ : BufTy).Contents (Elt F))
  :: StableHlo.binary main_arg2 main_v50 main_v51 (addi : (⟨S393216, .i32⟩ : BufTy).Contents (Elt F) → (⟨S393216, .i32⟩ : BufTy).Contents (Elt F) → (⟨S393216, .i32⟩ : BufTy).Contents (Elt F))
  :: StableHlo.ternary main_v49 main_v51 main_arg2 main_v52 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F))
  :: StableHlo.unary main_v52 main_v53 (broadcastInDim S393216x1 ![0] bcast_S393216_S393216x1_0 : (⟨S393216, .i32⟩ : BufTy).Contents (Elt F) → (⟨S393216x1, .i32⟩ : BufTy).Contents (Elt F))
  :: StableHlo.binary main_v46 main_v53 main_v54 ((fun x i => Host.gather gather_S49152x256_S393216x1_S393216x256_1_0_n_n_0_1_1256 x i) : (⟨S49152x256, .f32⟩ : BufTy).Contents (Elt F) → (⟨S393216x1, .i32⟩ : BufTy).Contents (Elt F) → (⟨S393216x256, .f32⟩ : BufTy).Contents (Elt F))
  :: StableHlo.unary main_v47 main_v55 (broadcastInDim S393216x256 ![0, 1] bcast_S393216x1_S393216x256_0_1 : (⟨S393216x1, .f32⟩ : BufTy).Contents (Elt F) → (⟨S393216x256, .f32⟩ : BufTy).Contents (Elt F))
  :: StableHlo.binary main_v55 main_v54 main_v56 (mulf : (⟨S393216x256, .f32⟩ : BufTy).Contents (Elt F) → (⟨S393216x256, .f32⟩ : BufTy).Contents (Elt F) → (⟨S393216x256, .f32⟩ : BufTy).Contents (Elt F))
  :: StableHlo.nullary main_cst_11 (constant S_ .f32 0x00000000#32)
  :: StableHlo.unary main_cst_11 main_v57 (broadcastInDim S49152x256 ![] bcast_S_S49152x256 : (⟨S_, .f32⟩ : BufTy).Contents (Elt F) → (⟨S49152x256, .f32⟩ : BufTy).Contents (Elt F))
  :: StableHlo.unary main_arg1 main_v58 (broadcastInDim S393216x1 ![0] bcast_S393216_S393216x1_0 : (⟨S393216, .i32⟩ : BufTy).Contents (Elt F) → (⟨S393216x1, .i32⟩ : BufTy).Contents (Elt F))
  :: StableHlo.ternary main_v57 main_v58 main_v56 main_v59 ((fun x i u => Host.scatterAdd scatter_S49152x256_S393216x1_S393216x256_1_0_0_1 x i u) : (⟨S49152x256, .f32⟩ : BufTy).Contents (Elt F) → (⟨S393216x1, .i32⟩ : BufTy).Contents (Elt F) → (⟨S393216x256, .f32⟩ : BufTy).Contents (Elt F) → (⟨S49152x256, .f32⟩ : BufTy).Contents (Elt F))
  :: StableHlo.nullary main_cst_12 (constant S_ .f32 0x40000000#32)
  :: StableHlo.unary main_cst_12 main_v60 (broadcastInDim S49152x256 ![] bcast_S_S49152x256 : (⟨S_, .f32⟩ : BufTy).Contents (Elt F) → (⟨S49152x256, .f32⟩ : BufTy).Contents (Elt F))
  :: StableHlo.binary main_v60 main_v59 main_v61 (mulf : (⟨S49152x256, .f32⟩ : BufTy).Contents (Elt F) → (⟨S49152x256, .f32⟩ : BufTy).Contents (Elt F) → (⟨S49152x256, .f32⟩ : BufTy).Contents (Elt F))
  :: StableHlo.binary main_v61 main_v30 main_v62 (subf : (⟨S49152x256, .f32⟩ : BufTy).Contents (Elt F) → (⟨S49152x256, .f32⟩ : BufTy).Contents (Elt F) → (⟨S49152x256, .f32⟩ : BufTy).Contents (Elt F))
  :: [] )

abbrev seg5 : List (HloOp τ sig (Elt F)) :=
  ( StableHlo.unary main_v1 main_v63 (broadcastInDim S1x49152x256 ![1, 2] bcast_S49152x256_S1x49152x256_1_2 : (⟨S49152x256, .f32⟩ : BufTy).Contents (Elt F) → (⟨S1x49152x256, .f32⟩ : BufTy).Contents (Elt F))
  :: StableHlo.unary main_v14 main_v64 (broadcastInDim S1x49152x256 ![1, 2] bcast_S49152x256_S1x49152x256_1_2 : (⟨S49152x256, .f32⟩ : BufTy).Contents (Elt F) → (⟨S1x49152x256, .f32⟩ : BufTy).Contents (Elt F))
  :: StableHlo.unary main_v30 main_v65 (broadcastInDim S1x49152x256 ![1, 2] bcast_S49152x256_S1x49152x256_1_2 : (⟨S49152x256, .f32⟩ : BufTy).Contents (Elt F) → (⟨S1x49152x256, .f32⟩ : BufTy).Contents (Elt F))
  :: StableHlo.unary main_v46 main_v66 (broadcastInDim S1x49152x256 ![1, 2] bcast_S49152x256_S1x49152x256_1_2 : (⟨S49152x256, .f32⟩ : BufTy).Contents (Elt F) → (⟨S1x49152x256, .f32⟩ : BufTy).Contents (Elt F))
  :: StableHlo.unary main_v62 main_v67 (broadcastInDim S1x49152x256 ![1, 2] bcast_S49152x256_S1x49152x256_1_2 : (⟨S49152x256, .f32⟩ : BufTy).Contents (Elt F) → (⟨S1x49152x256, .f32⟩ : BufTy).Contents (Elt F))
  :: StableHlo.nary ![main_v63, main_v64, main_v65, main_v66, main_v67] main_v68 (fun u => concatenate S5x49152x256 0 [⟨S1x49152x256, u 0⟩, ⟨S1x49152x256, u 1⟩, ⟨S1x49152x256, u 2⟩, ⟨S1x49152x256, u 3⟩, ⟨S1x49152x256, u 4⟩] concatenates_S1x49152x256_S1x49152x256_S1x49152x256_S1x49152x256_S1x49152x256_S5x49152x256_d0)
  :: StableHlo.reshape main_v68 main_v69 rfl shapeCasts_S5x49152x256_S5x49152x16x16
  :: StableHlo.unary main_v69 main_v70 ((transpose S16x49152x16x5 [3, 1, 2, 0] · transposes_S5x49152x16x16_S16x49152x16x5_3_1_2_0) : (⟨S5x49152x16x16, .f32⟩ : BufTy).Contents (Elt F) → (⟨S16x49152x16x5, .f32⟩ : BufTy).Contents (Elt F))
  :: StableHlo.reshape main_v70 main_v71 rfl shapeCasts_S16x49152x16x5_S786432x80
  :: [] )

abbrev seg6 : List (HloOp τ sig (Elt F)) :=
  ( StableHlo.reshape main_v71 main_v72 rfl shapeCasts_S786432x80_S196608x320
  :: StableHlo.nullary main_cst_13 (constant S_ .f32 0x00000000#32)
  :: StableHlo.unary main_cst_13 main_v73 (broadcastInDim S320x128 ![] bcast_S_S320x128 : (⟨S_, .f32⟩ : BufTy).Contents (Elt F) → (⟨S320x128, .f32⟩ : BufTy).Contents (Elt F))
  :: StableHlo.nullary main_c_14 (constantI S_ 32 0#32)
  :: StableHlo.unary main_c_14 main_v74 (broadcastInDim S1 ![] bcast_S_S1 : (⟨S_, .i32⟩ : BufTy).Contents (Elt F) → (⟨S1, .i32⟩ : BufTy).Contents (Elt F))
  :: StableHlo.nullary main_c_15 (constantI S_ 32 0#32)
  :: StableHlo.unary main_c_15 main_v75 (broadcastInDim S1 ![] bcast_S_S1 : (⟨S_, .i32⟩ : BufTy).Contents (Elt F) → (⟨S1, .i32⟩ : BufTy).Contents (Elt F))
  :: StableHlo.binary main_v74 main_v75 main_v76 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: StableHlo.ternary main_v73 main_v76 main_arg4 main_v77 ((fun x i u => Host.scatter scatter_S320x128_S2_S80x32_01_n_01_0 (fun _ b => b) x i u) : (⟨S320x128, .f32⟩ : BufTy).Contents (Elt F) → (⟨S2, .i32⟩ : BufTy).Contents (Elt F) → (⟨S80x32, .f32⟩ : BufTy).Contents (Elt F) → (⟨S320x128, .f32⟩ : BufTy).Contents (Elt F))
  :: StableHlo.nullary main_c_16 (constantI S_ 32 80#32)
  :: StableHlo.unary main_c_16 main_v78 (broadcastInDim S1 ![] bcast_S_S1 : (⟨S_, .i32⟩ : BufTy).Contents (Elt F) → (⟨S1, .i32⟩ : BufTy).Contents (Elt F))
  :: StableHlo.nullary main_c_17 (constantI S_ 32 32#32)
  :: StableHlo.unary main_c_17 main_v79 (broadcastInDim S1 ![] bcast_S_S1 : (⟨S_, .i32⟩ : BufTy).Contents (Elt F) → (⟨S1, .i32⟩ : BufTy).Contents (Elt F))
  :: StableHlo.binary main_v78 main_v79 main_v80 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: StableHlo.ternary main_v77 main_v80 main_arg4 main_v81 ((fun x i u => Host.scatter scatter_S320x128_S2_S80x32_01_n_01_0 (fun _ b => b) x i u) : (⟨S320x128, .f32⟩ : BufTy).Contents (Elt F) → (⟨S2, .i32⟩ : BufTy).Contents (Elt F) → (⟨S80x32, .f32⟩ : BufTy).Contents (Elt F) → (⟨S320x128, .f32⟩ : BufTy).Contents (Elt F))
  :: StableHlo.nullary main_c_18 (constantI S_ 32 160#32)
  :: StableHlo.unary main_c_18 main_v82 (broadcastInDim S1 ![] bcast_S_S1 : (⟨S_, .i32⟩ : BufTy).Contents (Elt F) → (⟨S1, .i32⟩ : BufTy).Contents (Elt F))
  :: StableHlo.nullary main_c_19 (constantI S_ 32 64#32)
  :: StableHlo.unary main_c_19 main_v83 (broadcastInDim S1 ![] bcast_S_S1 : (⟨S_, .i32⟩ : BufTy).Contents (Elt F) → (⟨S1, .i32⟩ : BufTy).Contents (Elt F))
  :: StableHlo.binary main_v82 main_v83 main_v84 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: StableHlo.ternary main_v81 main_v84 main_arg4 main_v85 ((fun x i u => Host.scatter scatter_S320x128_S2_S80x32_01_n_01_0 (fun _ b => b) x i u) : (⟨S320x128, .f32⟩ : BufTy).Contents (Elt F) → (⟨S2, .i32⟩ : BufTy).Contents (Elt F) → (⟨S80x32, .f32⟩ : BufTy).Contents (Elt F) → (⟨S320x128, .f32⟩ : BufTy).Contents (Elt F))
  :: StableHlo.nullary main_c_20 (constantI S_ 32 240#32)
  :: StableHlo.unary main_c_20 main_v86 (broadcastInDim S1 ![] bcast_S_S1 : (⟨S_, .i32⟩ : BufTy).Contents (Elt F) → (⟨S1, .i32⟩ : BufTy).Contents (Elt F))
  :: StableHlo.nullary main_c_21 (constantI S_ 32 96#32)
  :: StableHlo.unary main_c_21 main_v87 (broadcastInDim S1 ![] bcast_S_S1 : (⟨S_, .i32⟩ : BufTy).Contents (Elt F) → (⟨S1, .i32⟩ : BufTy).Contents (Elt F))
  :: StableHlo.binary main_v86 main_v87 main_v88 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: StableHlo.ternary main_v85 main_v88 main_arg4 main_v89 ((fun x i u => Host.scatter scatter_S320x128_S2_S80x32_01_n_01_0 (fun _ b => b) x i u) : (⟨S320x128, .f32⟩ : BufTy).Contents (Elt F) → (⟨S2, .i32⟩ : BufTy).Contents (Elt F) → (⟨S80x32, .f32⟩ : BufTy).Contents (Elt F) → (⟨S320x128, .f32⟩ : BufTy).Contents (Elt F))
  :: StableHlo.reshape main_arg5 main_v90 rfl shapeCasts_S1x1x32_S1x32
  :: StableHlo.reshape main_v90 main_v91 rfl shapeCasts_S1x32_S1x1x1x32
  :: StableHlo.unary main_v91 main_v92 (broadcastInDim S1x1x4x32 ![0, 1, 2, 3] bcast_S1x1x1x32_S1x1x4x32_0_1_2_3 : (⟨S1x1x1x32, .f32⟩ : BufTy).Contents (Elt F) → (⟨S1x1x4x32, .f32⟩ : BufTy).Contents (Elt F))
  :: StableHlo.reshape main_v92 main_v93 rfl shapeCasts_S1x1x4x32_S1x128
  :: [] )

set_option maxHeartbeats 4000000 in
theorem hostOps0_split : (Gen.hostOps0 : List (HloOp τ sig (Elt F))) = seg1 ++ (seg2 ++ (seg3 ++ (seg4 ++ (seg5 ++ seg6)))) := rfl

theorem after_append (A B : List (HloOp τ sig (Elt F))) (V : Valuation τ sig (Elt F)) :
    StableHlo.after (A ++ B) V = StableHlo.after B (StableHlo.after A V) := by
  induction A generalizing V with
  | nil => rfl
  | cons op A ih => simp only [List.cons_append, StableHlo.after_cons, ih]

/-! ## Each stretch, from any contents before it -/

theorem read1_v1 (σ : Valuation τ sig (Elt F)) :
    StableHlo.after (seg1 (F := F)) σ (Proc.devRef .tc main_v1) = signal (σ (Proc.devRef .tc main_arg0)) := by
  after_results_simp
  rfl

theorem read1_v14 (σ : Valuation τ sig (Elt F)) :
    StableHlo.after (seg1 (F := F)) σ (Proc.devRef .tc main_v14)
      = laplace (signal (σ (Proc.devRef .tc main_arg0))) (σ (Proc.devRef .tc main_arg1)) (σ (Proc.devRef .tc main_arg2)) (σ (Proc.devRef .tc main_arg3)) := by
  after_results_simp
  rfl

theorem read2_v30 (σ : Valuation τ sig (Elt F)) :
    StableHlo.after (seg2 (F := F)) σ (Proc.devRef .tc main_v30)
      = chebNext (σ (Proc.devRef .tc main_v14)) (σ (Proc.devRef .tc main_v1)) (σ (Proc.devRef .tc main_arg1)) (σ (Proc.devRef .tc main_arg2)) (σ (Proc.devRef .tc main_arg3)) := by
  after_results_simp
  rfl

theorem read3_v46 (σ : Valuation τ sig (Elt F)) :
    StableHlo.after (seg3 (F := F)) σ (Proc.devRef .tc main_v46)
      = chebNext (σ (Proc.devRef .tc main_v30)) (σ (Proc.devRef .tc main_v14)) (σ (Proc.devRef .tc main_arg1)) (σ (Proc.devRef .tc main_arg2)) (σ (Proc.devRef .tc main_arg3)) := by
  after_results_simp
  rfl

theorem read4_v62 (σ : Valuation τ sig (Elt F)) :
    StableHlo.after (seg4 (F := F)) σ (Proc.devRef .tc main_v62)
      = chebNext (σ (Proc.devRef .tc main_v46)) (σ (Proc.devRef .tc main_v30)) (σ (Proc.devRef .tc main_arg1)) (σ (Proc.devRef .tc main_arg2)) (σ (Proc.devRef .tc main_arg3)) := by
  after_results_simp
  rfl

theorem read5_v71 (σ : Valuation τ sig (Elt F)) :
    StableHlo.after (seg5 (F := F)) σ (Proc.devRef .tc main_v71)
      = stack5 (σ (Proc.devRef .tc main_v1)) (σ (Proc.devRef .tc main_v14)) (σ (Proc.devRef .tc main_v30))
          (σ (Proc.devRef .tc main_v46)) (σ (Proc.devRef .tc main_v62)) := by
  simp (disch := decide) only [after_cons, after_nil, unary_result', reshape_result', nary5_result',
    unary_result_ne', reshape_result_ne', nary_result_ne']
  rfl

theorem read6_v72 (σ : Valuation τ sig (Elt F)) :
    StableHlo.after (seg6 (F := F)) σ (Proc.devRef .tc main_v72)
      = shapeCast S196608x320 (σ (Proc.devRef .tc main_v71)) shapeCasts_S786432x80_S196608x320 := by
  after_results_simp
  rfl

theorem keep1_arg1 (σ : Valuation τ sig (Elt F)) :
    StableHlo.after (seg1 (F := F)) σ (Proc.devRef .tc main_arg1) = σ (Proc.devRef .tc main_arg1) := by
  after_results_simp
theorem keep1_arg2 (σ : Valuation τ sig (Elt F)) :
    StableHlo.after (seg1 (F := F)) σ (Proc.devRef .tc main_arg2) = σ (Proc.devRef .tc main_arg2) := by
  after_results_simp
theorem keep1_arg3 (σ : Valuation τ sig (Elt F)) :
    StableHlo.after (seg1 (F := F)) σ (Proc.devRef .tc main_arg3) = σ (Proc.devRef .tc main_arg3) := by
  after_results_simp
theorem keep2_v1 (σ : Valuation τ sig (Elt F)) :
    StableHlo.after (seg2 (F := F)) σ (Proc.devRef .tc main_v1) = σ (Proc.devRef .tc main_v1) := by
  after_results_simp
theorem keep2_v14 (σ : Valuation τ sig (Elt F)) :
    StableHlo.after (seg2 (F := F)) σ (Proc.devRef .tc main_v14) = σ (Proc.devRef .tc main_v14) := by
  after_results_simp
theorem keep2_arg1 (σ : Valuation τ sig (Elt F)) :
    StableHlo.after (seg2 (F := F)) σ (Proc.devRef .tc main_arg1) = σ (Proc.devRef .tc main_arg1) := by
  after_results_simp
theorem keep2_arg2 (σ : Valuation τ sig (Elt F)) :
    StableHlo.after (seg2 (F := F)) σ (Proc.devRef .tc main_arg2) = σ (Proc.devRef .tc main_arg2) := by
  after_results_simp
theorem keep2_arg3 (σ : Valuation τ sig (Elt F)) :
    StableHlo.after (seg2 (F := F)) σ (Proc.devRef .tc main_arg3) = σ (Proc.devRef .tc main_arg3) := by
  after_results_simp
theorem keep3_v1 (σ : Valuation τ sig (Elt F)) :
    StableHlo.after (seg3 (F := F)) σ (Proc.devRef .tc main_v1) = σ (Proc.devRef .tc main_v1) := by
  after_results_simp
theorem keep3_v14 (σ : Valuation τ sig (Elt F)) :
    StableHlo.after (seg3 (F := F)) σ (Proc.devRef .tc main_v14) = σ (Proc.devRef .tc main_v14) := by
  after_results_simp
theorem keep3_v30 (σ : Valuation τ sig (Elt F)) :
    StableHlo.after (seg3 (F := F)) σ (Proc.devRef .tc main_v30) = σ (Proc.devRef .tc main_v30) := by
  after_results_simp
theorem keep3_arg1 (σ : Valuation τ sig (Elt F)) :
    StableHlo.after (seg3 (F := F)) σ (Proc.devRef .tc main_arg1) = σ (Proc.devRef .tc main_arg1) := by
  after_results_simp
theorem keep3_arg2 (σ : Valuation τ sig (Elt F)) :
    StableHlo.after (seg3 (F := F)) σ (Proc.devRef .tc main_arg2) = σ (Proc.devRef .tc main_arg2) := by
  after_results_simp
theorem keep3_arg3 (σ : Valuation τ sig (Elt F)) :
    StableHlo.after (seg3 (F := F)) σ (Proc.devRef .tc main_arg3) = σ (Proc.devRef .tc main_arg3) := by
  after_results_simp
theorem keep4_v1 (σ : Valuation τ sig (Elt F)) :
    StableHlo.after (seg4 (F := F)) σ (Proc.devRef .tc main_v1) = σ (Proc.devRef .tc main_v1) := by
  after_results_simp
theorem keep4_v14 (σ : Valuation τ sig (Elt F)) :
    StableHlo.after (seg4 (F := F)) σ (Proc.devRef .tc main_v14) = σ (Proc.devRef .tc main_v14) := by
  after_results_simp
theorem keep4_v30 (σ : Valuation τ sig (Elt F)) :
    StableHlo.after (seg4 (F := F)) σ (Proc.devRef .tc main_v30) = σ (Proc.devRef .tc main_v30) := by
  after_results_simp
theorem keep4_v46 (σ : Valuation τ sig (Elt F)) :
    StableHlo.after (seg4 (F := F)) σ (Proc.devRef .tc main_v46) = σ (Proc.devRef .tc main_v46) := by
  after_results_simp

/-! ## The chain -/

/-- After the first five stretches, from any contents, the feature buffer holds `features` of the arguments. -/
theorem features_read (σ : Valuation τ sig (Elt F)) :
    StableHlo.after (seg5 (F := F)) (StableHlo.after seg4 (StableHlo.after seg3 (StableHlo.after seg2 (StableHlo.after seg1 σ))))
        (Proc.devRef .tc main_v71)
      = features (σ (Proc.devRef .tc main_arg0)) (σ (Proc.devRef .tc main_arg1)) (σ (Proc.devRef .tc main_arg2)) (σ (Proc.devRef .tc main_arg3)) := by
  rw [read5_v71, read4_v62, keep4_v1, keep4_v14, keep4_v30, keep4_v46,
    read3_v46, keep3_v1, keep3_v14, keep3_v30, keep3_arg1, keep3_arg2, keep3_arg3,
    read2_v30, keep2_v1, keep2_v14, keep2_arg1, keep2_arg2, keep2_arg3,
    read1_v1, read1_v14, keep1_arg1, keep1_arg2, keep1_arg3]
  rfl

/-- The packed-feature buffer after all the host lines before the launch. -/
theorem packed_read (σ : Valuation τ sig (Elt F)) :
    StableHlo.after (Gen.hostOps0 (F := F)) σ (Proc.devRef .tc main_v72)
      = shapeCast S196608x320 (features (σ (Proc.devRef .tc main_arg0)) (σ (Proc.devRef .tc main_arg1)) (σ (Proc.devRef .tc main_arg2)) (σ (Proc.devRef .tc main_arg3))) shapeCasts_S786432x80_S196608x320 := by
  rw [hostOps0_split, after_append, after_append, after_append, after_append, after_append, read6_v72, features_read]

end Cert.KernelIdeal.Cheb

end
-- ==== Proof.HostReads.lean ====
/-
  What the three operand arrays of the launch hold when it begins, as functions of the program's arguments.

  The packed features are the feature matrix [786432, 80] reshaped; the feature matrix is what the host lines compute
  from the signal, the index lists and the values: the signal transposed to [vertices, features × batch], the
  Chebyshev recurrence x₁ = L·x₀, x_{k+1} = 2·L·x_k − x_{k−1} with each product a gather of rows, a scaling and a
  scatter-add, and the five terms stacked, transposed and flattened. The reference program has the same lines, and
  its stage function for that matrix is used here to name it; nothing about it is needed beyond that the two
  programs compute the same term. The weight operand is the block-diagonal matrix of the weight argument, and the
  bias operand is the tiled bias row.
-/
import proofs.«111723_j26714696581338_2_alg».proof.Proof.ProjRunIdeal
import proofs.«111723_j26714696581338_2_alg».proof.Proof.Unpack
import proofs.«111723_j26714696581338_2_alg».proof.Proof.ChebStages
import proofs.«111723_j26714696581338_2_alg».proof.Proof.Gen.ReferenceIdeal.Read

set_option maxRecDepth 16384

noncomputable section

namespace Cert.KernelIdeal.Proj

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 4000000 in
/-- The bias operand is the tiled bias row. -/
theorem entry_bias (c : Dev nD) :
    V m c (Pipeline.arrRef spec0 2) = biasTile (m ((c : Thread nD τ).loc main_arg5)) := by
  show StableHlo.after hostOps0 (fun b => m (c, b)) (Proc.devRef .tc main_v93) = _
  after_results_simp
  rfl

set_option maxHeartbeats 4000000 in
/-- The weight operand is the block-diagonal matrix of the weight argument over zero. -/
theorem entry_weight (c : Dev nD) :
    V m c (Pipeline.arrRef spec0 1) = Weights.blockDiag zeroMat (m ((c : Thread nD τ).loc main_arg4)) := by
  show StableHlo.after hostOps0 (fun b => m (c, b)) (Proc.devRef .tc main_v89) = _
  after_results_simp
  rfl

/-- The reference's stage function for the feature matrix is the same term of the arguments. -/
theorem ref_features (x : (⟨S16x49152x16, .f32⟩ : BufTy).Contents (Elt Ideal)) (rows cols : (⟨S393216, .i32⟩ : BufTy).Contents (Elt Ideal))
    (vals : (⟨S393216, .f32⟩ : BufTy).Contents (Elt Ideal)) :
    Cert.ReferenceIdeal.Read.val_main_v71 (F := Ideal) x rows cols vals = Cheb.features (F := Ideal) x rows cols vals := rfl

/-- The packed features are the feature matrix, reshaped. -/
theorem entry_rows (c : Dev nD) :
    V m c (Pipeline.arrRef spec0 0)
      = shapeCast S196608x320
          (Cert.ReferenceIdeal.Read.val_main_v71 (F := Ideal) (m ((c : Thread nD τ).loc main_arg0))
            (m ((c : Thread nD τ).loc main_arg1)) (m ((c : Thread nD τ).loc main_arg2)) (m ((c : Thread nD τ).loc main_arg3)))
          Facts₀.shapeCasts_S786432x80_S196608x320 := by
  show StableHlo.after hostOps0 (fun b => m (c, b)) (Proc.devRef .tc main_v72) = _
  rw [Cheb.packed_read, ref_features]

end Cert.KernelIdeal.Proj

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.TileEntry.lean ====
/-
  One entry of the result tile, on the extended reals.

  The body's value is (rows · weight) + bias row: the rows and the weight are narrowed to sixteen bits, which is the
  identity on extended reals; the product is accumulated into zero, so its entry (p, q) is the sum over k of
  rows (p, k) · weight (k, q); and the bias row [1, 128] broadcast down the tile adds bias (0, q).
-/
import proofs.«111723_j26714696581338_2_alg».proof.Proof.ProjRunIdeal
import proofs.«111723_j26714696581338_2_alg».proof.Proof.LibPlainDot
import Idealize.ShloMosaic.Lib.ValueLayout
import Idealize.ShloMosaic.Lib.Pipeline.Value

noncomputable section

namespace Cert.KernelIdeal.Proj

open Cert.KernelIdeal Cert.KernelIdeal.Gen
open Idealize.ShloMosaic Idealize.ShloMosaic.ValueIdx
open scoped BigOperators

theorem origin2 : (![0, 0] : Fin 2 → Nat) = fun _ => 0 := funext fun a => by fin_cases a <;> rfl

/-- The body's value, with the casts between equal shapes removed. -/
theorem pay_eq (x : Vec Ideal S4096x320 .f32) (w : Vec Ideal S320x128 .f32) (b : Vec Ideal S1x128 .f32) :
    k0_pay1 (F := Ideal) x w b
      = addf (matmul dot_S4096x320_S320x128_S4096x128_1_0_0_1_n_n none (truncf .bf16 x bitsLt_bf16_f32) (truncf .bf16 w bitsLt_bf16_f32)
          (constant (F := Ideal) S4096x128 .f32 0x00000000#32))
        (broadcastTo S4096x128 b broadcasts_S1x128_S4096x128) := by
  unfold k0_pay1
  rw [shapeCast_self, shapeCast_self, shapeCast_self]

theorem tileOut_apply (x : Vec Ideal S4096x320 .f32) (w : Vec Ideal S320x128 .f32) (b : Vec Ideal S1x128 .f32)
    (p : Fin 4096) (q : Fin 128) :
    tileOut (F := Ideal) x w b (ix2 p q) = (∑ k : Fin 320, x (ix2 p k) * w (ix2 k q)) + b (ix2 (0 : Fin 1) q) := by
  unfold tileOut
  rw [View.canon_unit_zero origin2]
  simp only [View.ld_unit_zero (S := S4096x320) origin2, View.ld_unit_zero (S := S320x128) origin2,
    View.ld_unit_zero (S := S1x128) origin2]
  rw [pay_eq]
  show matmul dot_S4096x320_S320x128_S4096x128_1_0_0_1_n_n none (truncf .bf16 x bitsLt_bf16_f32) (truncf .bf16 w bitsLt_bf16_f32)
        (constant (F := Ideal) S4096x128 .f32 0x00000000#32) (ix2 p q)
      + broadcastTo S4096x128 b broadcasts_S1x128_S4096x128 (ix2 p q) = _
  rw [PlainDot.matmul_zero_apply dot_S4096x320_S320x128_S4096x128_1_0_0_1_n_n rfl none _ _ (ix2 p q), broadcastTo_1b_ab_apply]
  rfl

end Cert.KernelIdeal.Proj

end
-- ==== Proof.TileOfArrays.lean ====
/-
  A written tile is a tile of the packed projection of the three whole operand arrays.

  Point t of the grid reads rows [4096·t, 4096·t + 4096) of the packed features (block (t, 0) of operand 0), the
  whole weight and the whole bias row (block (0, 0) of operands 1 and 2), and writes rows [4096·t, 4096·t + 4096) of
  the result. Entry (p, q) of the tile it writes is Σ_k rows (p, k) · weight (k, q) + bias (0, q), which is entry
  (4096·t + p, q) of `packedOut` of the three whole arrays, whatever those arrays are.
-/
import proofs.«111723_j26714696581338_2_alg».proof.Proof.ProjRunIdeal
import proofs.«111723_j26714696581338_2_alg».proof.Proof.TileEntry
import proofs.«111723_j26714696581338_2_alg».proof.Proof.Unpack
import Idealize.ShloMosaic.Lib.Pipeline.Value
import Idealize.ShloMosaic.Lib.StableHlo.Run

set_option maxRecDepth 16384

noncomputable section

namespace Cert.KernelIdeal.Proj

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- One entry of a written tile against one entry of the whole result: equal as soon as the three staged blocks
    agree with the three arrays along the row and the column involved. -/
theorem tile_entry (A : S196608x320.Idx → EReal) (W : S320x128.Idx → EReal) (Bv : S1x128.Idx → EReal)
    (x0 : Vec Ideal S4096x320 .f32) (x1 : Vec Ideal S320x128 .f32) (x2 : Vec Ideal S1x128 .f32)
    (y : S4096x128.Idx) (i : S196608x128.Idx)
    (h0 : ∀ k : Fin 320, x0 (ix2 (y 0) k) = A (ix2 (i 0) k))
    (h1 : ∀ k : Fin 320, x1 (ix2 k (y 1)) = W (ix2 k (i 1)))
    (h2 : x2 (ix2 (0 : Fin 1) (y 1)) = Bv (ix2 (0 : Fin 1) (i 1))) :
    tileOut (F := Ideal) x0 x1 x2 y = packedOut A W Bv i := by
  obtain ⟨p, q, rfl⟩ : ∃ (p : Fin 4096) (q : Fin 128), y = ix2 p q := ⟨y 0, y 1, eq_ix2 y⟩
  have h0' : ∀ k : Fin 320, x0 (ix2 p k) = A (ix2 (i 0) k) := h0
  have h1' : ∀ k : Fin 320, x1 (ix2 k q) = W (ix2 k (i 1)) := h1
  have h2' : x2 (ix2 (0 : Fin 1) q) = Bv (ix2 (0 : Fin 1) (i 1)) := h2
  rw [tileOut_apply]
  unfold packedOut
  rw [h2']
  exact congrArg (· + _) (Finset.sum_congr rfl fun k _ => by rw [h0' k, h1' k])

/-- The block indices over the grid: operand 0 and the result move with the point along the rows; operands 1 and 2
    stay at the origin. -/
theorem grid_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 4000000 in
/-- Tile `t` computed from blocks `t` of three arrays is tile `t` of `packedOut` of the arrays. -/
theorem tile_of_arrays (A0 : S196608x320.Idx → EReal) (A1 : S320x128.Idx → EReal) (A2 : S1x128.Idx → EReal)
    (t : Fin cfg0.N) (y : S4096x128.Idx) :
    tileOut (F := Ideal) (((cfg0.win 0).blk t).view.read (Elt Ideal) A0) (((cfg0.win 1).blk t).view.read (Elt Ideal) A1)
        (((cfg0.win 2).blk t).view.read (Elt Ideal) A2) y
      = packedOut A0 A1 A2 (((cfg0.win 3).blk t).view.emb y) := by
  obtain ⟨e00, e01, e10, e11, e20, e21, e30, e31⟩ := grid_facts t
  have hy0 : (y 0).val < 4096 := (y 0).isLt
  have hy1 : (y 1).val < 128 := (y 1).isLt
  refine tile_entry _ _ _ _ _ _ y _ ?_ ?_ ?_
  · intro k
    have hk : k.val < 320 := k.isLt
    show A0 (((cfg0.win 0).blk t).view.emb (ix2 (y 0) k)) = A0 (ix2 ((((cfg0.win 3).blk t).view.emb y) 0) k)
    refine congrArg A0 (funext fun a => Fin.ext ?_)
    match a with
    | ⟨0, _⟩ => show win0_0.index t (0 : Fin 2) * 4096 + 1 * (y 0).val = win0_3.index t (0 : Fin 2) * 4096 + 1 * (y 0).val; omega
    | ⟨1, _⟩ => show win0_0.index t (1 : Fin 2) * 320 + 1 * k.val = k.val; omega
  · intro k
    have hk : k.val < 320 := k.isLt
    show A1 (((cfg0.win 1).blk t).view.emb (ix2 k (y 1))) = A1 (ix2 k ((((cfg0.win 3).blk t).view.emb y) 1))
    refine congrArg A1 (funext fun a => Fin.ext ?_)
    match a with
    | ⟨0, _⟩ => show win0_1.index t (0 : Fin 2) * 320 + 1 * k.val = k.val; omega
    | ⟨1, _⟩ => show win0_1.index t (1 : Fin 2) * 128 + 1 * (y 1).val = win0_3.index t (1 : Fin 2) * 128 + 1 * (y 1).val; omega
  · show A2 (((cfg0.win 2).blk t).view.emb (ix2 (0 : Fin 1) (y 1))) = A2 (ix2 (0 : Fin 1) ((((cfg0.win 3).blk t).view.emb y) 1))
    refine congrArg A2 (funext fun a => Fin.ext ?_)
    match a with
    | ⟨0, _⟩ => show win0_2.index t (0 : Fin 2) * 1 + 1 * 0 = 0; omega
    | ⟨1, _⟩ => show win0_2.index t (1 : Fin 2) * 128 + 1 * (y 1).val = win0_3.index t (1 : Fin 2) * 128 + 1 * (y 1).val; omega

end Cert.KernelIdeal.Proj

end
-- ==== Proof.ResultArray.lean ====
/-
  The launch's result array is the packed projection of its three operand arrays.

  Stated for any proof data of the launch whose result buffer ends each point at the tile computed from blocks of
  three arrays A0, A1, A2: each point then writes back its tile of `packedOut A0 A1 A2`, and the 48 tiles cover the
  result's 196608 rows (row ρ is in tile ρ / 4096), so the result array ends at `packedOut A0 A1 A2`.
-/
import proofs.«111723_j26714696581338_2_alg».proof.Proof.ProjRunIdeal
import proofs.«111723_j26714696581338_2_alg».proof.Proof.TileEntry
import proofs.«111723_j26714696581338_2_alg».proof.Proof.Unpack
import proofs.«111723_j26714696581338_2_alg».proof.Proof.TileOfArrays
import Idealize.ShloMosaic.Lib.Pipeline.Value
import Idealize.ShloMosaic.Lib.StableHlo.Run

set_option maxRecDepth 16384

noncomputable section

namespace Cert.KernelIdeal.Proj

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- An index of the result array is in tile `t` iff each coordinate is in the tile's range on its axis. -/
theorem mem_tile (t : Fin cfg0.N) (i : S196608x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v94).slice (win0_3.rect t)).set ↔ _
  rw [View.set_slice_whole, Rect.mem_set_unit]
  exact Iff.rfl

/-- Every entry of the result array is in some tile: row ρ in tile ρ / 4096. -/
theorem covered (i : S196608x128.Idx) : ∃ t : Fin cfg0.N, (cfg0.win 3).flush t = true ∧ i ∈ ((cfg0.win 3).blk t).view.set := by
  have hi0 : (i 0).val < 196608 := (i 0).isLt
  have hi1 : (i 1).val < 128 := (i 1).isLt
  have hN : cfg0.N = 48 := N_0
  let t : Fin cfg0.N := ⟨(i 0).val / 4096, by rw [hN]; omega⟩
  obtain ⟨e00, e01, e10, e11, e20, e21, e30, e31⟩ := grid_facts t
  have ht : t.val = (i 0).val / 4096 := rfl
  refine ⟨t, flush0_3 t, ?_⟩
  rw [mem_tile]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

variable {c : Dev nD} (dat : Dat τ (Elt Ideal) Unit ℕ (UR sig nD τ) ℕ cfg0 c)
  (A0 : S196608x320.Idx → EReal) (A1 : S320x128.Idx → EReal) (A2 : S1x128.Idx → EReal)

set_option maxHeartbeats 4000000 in
/-- What point `t` writes back is tile `t` of `packedOut` of the three arrays. -/
theorem flushed_of
    (h : ∀ t, dat.after 3 t = tileOut (F := Ideal) (((cfg0.win 0).blk t).view.read (Elt Ideal) A0)
      (((cfg0.win 1).blk t).view.read (Elt Ideal) A1) (((cfg0.win 2).blk t).view.read (Elt Ideal) A2))
    (t : Fin cfg0.N) :
    dat.flushed 3 t = ((cfg0.win 3).blk t).view.read (Elt Ideal) (packedOut A0 A1 A2) := by
  show (cfg0.win 3).cut (grid0.coords t) (dat.after 3 t) = _
  rw [h]
  funext y
  exact tile_of_arrays A0 A1 A2 t y

/-- The result array after the launch. -/
theorem final_of
    (h : ∀ t, dat.after 3 t = tileOut (F := Ideal) (((cfg0.win 0).blk t).view.read (Elt Ideal) A0)
      (((cfg0.win 1).blk t).view.read (Elt Ideal) A1) (((cfg0.win 2).blk t).view.read (Elt Ideal) A2)) :
    dat.arrAt 3 cfg0.N = packedOut A0 A1 A2 :=
  dat.arrAt_eq_of_cover 3 (packedOut A0 A1 A2) (fun t _ => flushed_of dat A0 A1 A2 h t) covered

end Cert.KernelIdeal.Proj

end
-- ==== Proof.RunValue.lean ====
/-
  The kernel program's run with its result named: the launch's result array, which is the packed projection of the
  three operand arrays as the launch finds them, seen as [16, 49152, 32].
-/
import proofs.«111723_j26714696581338_2_alg».proof.Proof.ProjRunIdeal
import proofs.«111723_j26714696581338_2_alg».proof.Proof.TileEntry
import proofs.«111723_j26714696581338_2_alg».proof.Proof.Unpack
import proofs.«111723_j26714696581338_2_alg».proof.Proof.ResultArray
import Idealize.ShloMosaic.Lib.Pipeline.Value
import Idealize.ShloMosaic.Lib.StableHlo.Run

set_option maxRecDepth 16384

noncomputable section

namespace Cert.KernelIdeal.Proj

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- After the body at point `t` the result's staging buffer holds the tile computed from blocks `t` of the three
    operand arrays. -/
theorem after3_arrays (c : Dev nD) (t : Fin cfg0.N) :
    (dats m 0 c).after 3 t
      = tileOut (F := Ideal) (((cfg0.win 0).blk t).view.read (Elt Ideal) (V m c (Pipeline.arrRef spec0 0)))
          (((cfg0.win 1).blk t).view.read (Elt Ideal) (V m c (Pipeline.arrRef spec0 1)))
          (((cfg0.win 2).blk t).view.read (Elt Ideal) (V m c (Pipeline.arrRef spec0 2))) := by
  rw [after3]
  unfold iblk
  rfl

/-- The result array after the launch. -/
theorem final (c : Dev nD) :
    (dats m 0 c).arrAt 3 cfg0.N = packedOut (V m c (Pipeline.arrRef spec0 0)) (V m c (Pipeline.arrRef spec0 1)) (V m c (Pipeline.arrRef spec0 2)) :=
  final_of (dats m 0 c) _ _ _ (after3_arrays m c)

set_option maxHeartbeats 4000000 in
/-- The program's result buffer after the two reshapes. -/
theorem result_eq (c : Dev nD) :
    Pipeline.afterTail₀ cfgs (dats m) 0 (V0 m) [hostOps1] c main_v96
      = unpack (packedOut (V m c (Pipeline.arrRef spec0 0)) (V m c (Pipeline.arrRef spec0 1)) (V m c (Pipeline.arrRef spec0 2))) := by
  unfold Pipeline.afterTail₀
  show StableHlo.after hostOps1 _ (Proc.devRef .tc main_v96) = _
  after_results
  unfold unpack
  rw [(Pipeline.withArrays_arr spec0 launch0.win.arr_inj c _ _ 3).trans (final m c)]
  rfl

/-- The run, with the result named: every execution ends with the result buffer at the unpacked packed projection
    of the three operand arrays, and the arguments unchanged. -/
theorem run_value : θ_run defs (onTc (τ := τ) (main (F := Ideal))) ⟨m, fun _ => 0, ρ⟩ (fun r => ∀ c : Dev nD,
      r.2.mem ((c.tc : Thread nD τ).loc main_v96) = unpack (packedOut (V m c (Pipeline.arrRef spec0 0)) (V m c (Pipeline.arrRef spec0 1)) (V m c (Pipeline.arrRef spec0 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v96 (Pipeline.mem_restRefs_of main_v96 (by decide) (by decide))).trans (result_eq m c),
     ((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c),
     ((h c).2 main_arg4 (Pipeline.mem_restRefs_of main_arg4 (by decide) (by decide))).trans (exit_arg4 m (dats m) c),
     ((h c).2 main_arg5 (Pipeline.mem_restRefs_of main_arg5 (by decide) (by decide))).trans (exit_arg5 m (dats m) c)⟩) (run_main m ρ)

end Cert.KernelIdeal.Proj

end
-- ==== Proof.RefSide.lean ====
/-
  The reference's result at one entry.

  The reference multiplies the feature matrix X [786432, 80] by the weight K [80, 32], views the product as
  [16, 49152, 32], and adds the bias broadcast over the first two axes. Entry (b, v, c) of the view is entry (R, c)
  of the product with R = b·49152 + v, which on the extended reals is Σ_k X (R, k) · K (k, c); the broadcast bias
  there is the bias at (0, 0, c).
-/
import proofs.«111723_j26714696581338_2_alg».proof.Proof.Gen.ReferenceIdeal.Run
import proofs.«111723_j26714696581338_2_alg».proof.Proof.Gen.ReferenceIdeal.Read
import Idealize.ShloMosaic.Lib.ValueIdx

noncomputable section

namespace Cert.ReferenceIdeal.RefValue

open Cert.ReferenceIdeal Cert.ReferenceIdeal.Read Idealize.ShloMosaic Idealize.ShloMosaic.ValueIdx
open scoped BigOperators

theorem ref_entry (x0 : (⟨S16x49152x16, .f32⟩ : BufTy).Contents (Elt Ideal)) (x1 x2 : (⟨S393216, .i32⟩ : BufTy).Contents (Elt Ideal))
    (x3 : (⟨S393216, .f32⟩ : BufTy).Contents (Elt Ideal)) (x4 : (⟨S80x32, .f32⟩ : BufTy).Contents (Elt Ideal))
    (x5 : (⟨S1x1x32, .f32⟩ : BufTy).Contents (Elt Ideal)) (i : S16x49152x32.Idx) (R : Fin 786432)
    (hR : R.val = (i 0).val * 49152 + (i 1).val) :
    val_main_v75 (F := Ideal) x0 x1 x2 x3 x4 x5 i
      = (∑ k : Fin 80, val_main_v71 (F := Ideal) x0 x1 x2 x3 (ix2 R k) * x4 (ix2 k (i 2))) + x5 (ix3 (0 : Fin 1) (0 : Fin 1) (i 2)) := by
  have hi0 : (i 0).val < 16 := (i 0).isLt
  have hi1 : (i 1).val < 49152 := (i 1).isLt
  have hi2 : (i 2).val < 32 := (i 2).isLt
  rw [val_main_v75_apply, val_main_v73_apply, val_main_v72_apply, val_main_v74_apply]
  have el : ∀ k : Fin 80, lidx_main_v72 (idx_main_v73 i) k = ix2 R k := fun k => funext fun a => Fin.ext (by
    match a with
    | ⟨0, _⟩ => show (((i 0).val * 49152 + (i 1).val) * 32 + (i 2).val) / 32 = R.val; omega
    | ⟨1, _⟩ => rfl)
  have er : ∀ k : Fin 80, ridx_main_v72 (idx_main_v73 i) k = ix2 k (i 2) := fun k => funext fun a => Fin.ext (by
    match a with
    | ⟨0, _⟩ => rfl
    | ⟨1, _⟩ => show (((i 0).val * 49152 + (i 1).val) * 32 + (i 2).val) % 32 = (i 2).val; omega)
  have eb : idx_main_v74 i = ix3 (0 : Fin 1) (0 : Fin 1) (i 2) := funext fun a => Fin.ext (by
    match a with
    | ⟨0, _⟩ => rfl
    | ⟨1, _⟩ => rfl
    | ⟨2, _⟩ => rfl)
  simp only [el, er, eb]
  rfl

end Cert.ReferenceIdeal.RefValue

end
-- ==== Proof.lean ====
/-
  The graph-convolution projection: the packed block-diagonal kernel against the plain reference.

  Both programs compute the same feature matrix X [786432, 80] from the signal by the same host lines (the
  Chebyshev recurrence over the sparse Laplacian, stacked and flattened). The reference then forms X · K + β. The
  kernel program packs four rows of X into one row of 320, multiplies by the block-diagonal matrix carrying K four
  times, adds β tiled four times, in 48 row tiles on the device, and unpacks. Entry by entry the two results are the
  same sum Σ_k X (R, k) · K (k, c) + β c: the products against the zero blocks vanish for every extended real
  (`Proof/Unpack.lean`), so the precondition is not used.

  The three programs run to the end with their arguments unchanged: the two kernel programs by the launch theorem
  for a body that loads its blocks whole and stores its tile whole (`Proof/ProjRunBits.lean`, `Proof/ProjRunIdeal.lean`),
  the reference by its run read back. The idealization rewrote nothing, so its conjunct is trivial.
-/
import proofs.«111723_j26714696581338_2_alg».proof.Defs
import proofs.«111723_j26714696581338_2_alg».proof.Proof.Gen.Kernel
import proofs.«111723_j26714696581338_2_alg».proof.Proof.Gen.KernelIdeal
import proofs.«111723_j26714696581338_2_alg».proof.Proof.Gen.ReferenceIdeal
import proofs.«111723_j26714696581338_2_alg».proof.Proof.Gen.Pre_finite_inputs
import proofs.«111723_j26714696581338_2_alg».proof.Proof.Gen.ReferenceIdeal.Run
import proofs.«111723_j26714696581338_2_alg».proof.Proof.Gen.ReferenceIdeal.Read
import proofs.«111723_j26714696581338_2_alg».proof.Proof.ProjRunBits
import proofs.«111723_j26714696581338_2_alg».proof.Proof.ProjRunIdeal
import proofs.«111723_j26714696581338_2_alg».proof.Proof.HostReads
import proofs.«111723_j26714696581338_2_alg».proof.Proof.RunValue
import proofs.«111723_j26714696581338_2_alg».proof.Proof.Unpack
import proofs.«111723_j26714696581338_2_alg».proof.Proof.RefSide

noncomputable section

namespace Cert.Proof

open Idealize.ShloMosaic Idealize.ShloMosaic.TcCoe Idealize.SL.Sem

theorem frame_k : Cert.frame_Kernel := fun m ρ _ => Cert.Kernel.Proj.frame m ρ
theorem frame_ki : Cert.frame_KernelIdeal := fun m ρ _ => Cert.KernelIdeal.Proj.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments, the reference's result term is the kernel program's: entry by
    entry both are Σ_k X (R, k) · K (k, c) + β c. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v75 m' c
      = Cert.KernelIdeal.Proj.unpack (Cert.KernelIdeal.Proj.packedOut (Cert.KernelIdeal.Proj.V m c (Pipeline.arrRef Cert.KernelIdeal.spec0 0))
          (Cert.KernelIdeal.Proj.V m c (Pipeline.arrRef Cert.KernelIdeal.spec0 1)) (Cert.KernelIdeal.Proj.V m c (Pipeline.arrRef Cert.KernelIdeal.spec0 2))) := by
  rw [Cert.ReferenceIdeal.Read.val_main_v75_eq, h0, h1, h2, h3, h4, h5,
    Cert.KernelIdeal.Proj.entry_rows, Cert.KernelIdeal.Proj.entry_weight, Cert.KernelIdeal.Proj.entry_bias]
  funext i
  have hi0 : (i 0).val < 16 := (i 0).isLt
  have hi1 : (i 1).val < 49152 := (i 1).isLt
  let R : Fin 786432 := ⟨(i 0).val * 49152 + (i 1).val, by omega⟩
  exact (Cert.ReferenceIdeal.RefValue.ref_entry _ _ _ _ _ _ i R rfl).trans
    (Cert.KernelIdeal.Proj.unpack_entry _ _ _ i R rfl).symm

theorem algebraic : Cert.algebraic_KernelIdeal_ReferenceIdeal := by
  intro m ρ m' ρ' _ hagree
  refine ⟨_, Cert.KernelIdeal.Proj.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  exact results_agree m m' c h0 h1 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
